-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S1024x4096 : Shape := ⟨2, ![1024, 4096]⟩
abbrev S4096 : Shape := ⟨1, ![4096]⟩
abbrev S1024 : Shape := ⟨1, ![1024]⟩
abbrev S4096x16 : Shape := ⟨2, ![4096, 16]⟩
abbrev S16x4096 : Shape := ⟨2, ![16, 4096]⟩
abbrev S16x1024 : Shape := ⟨2, ![16, 1024]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part3 {F : FTy → Type} [FloatOps F] (main_arg11 : FVec F S4096x16 .f32) (main_arg12 : FVec F S16x1024 .f32) (main_v48 : IVec S_ 1) (main_v49 : FVec F S16x1024 .f32) (main_v50 : FVec F S16x1024 .f32) : IVec S_ 1 :=
  let main_v51 : IVec S16x1024 1 := cmpf .olt main_v49 main_v50
  let main_c_19 : IVec S_ 1 := constantI S_ 1 1#1
  let main_v52 : IVec S_ 1 := (fun x v => Host.reduce IntOp.andi x v reducesTo_S16x1024_S_d0_1 h_S_) main_v51 main_c_19
  let main_v53 : IVec S_ 1 := andi main_v48 main_v52
  let main_v54 : FVec F S4096x16 .f32 := Host.absf main_arg11
  let main_cst_20 : FVec F S_ .f32 := constant S_ .f32 0x7F800000#32
  let main_v55 : FVec F S4096x16 .f32 := broadcastInDim S4096x16 ![] bcast_S_S4096x16 main_cst_20
  let main_v56 : IVec S4096x16 1 := cmpf .olt main_v54 main_v55
  let main_c_21 : IVec S_ 1 := constantI S_ 1 1#1
  let main_v57 : IVec S_ 1 := (fun x v => Host.reduce IntOp.andi x v reducesTo_S4096x16_S_d0_1 h_S_) main_v56 main_c_21
  let main_v58 : IVec S_ 1 := andi main_v53 main_v57
  let main_v59 : FVec F S16x1024 .f32 := Host.absf main_arg12
  let main_cst_22 : FVec F S_ .f32 := constant S_ .f32 0x7F800000#32
  let main_v60 : FVec F S16x1024 .f32 := broadcastInDim S16x1024 ![] bcast_S_S16x1024 main_cst_22
  let main_v61 : IVec S16x1024 1 := cmpf .olt main_v59 main_v60
  let main_c_23 : IVec S_ 1 := constantI S_ 1 1#1
  let main_v62 : IVec S_ 1 := (fun x v => Host.reduce IntOp.andi x v reducesTo_S16x1024_S_d0_1 h_S_) main_v61 main_c_23
  let main_v63 : IVec S_ 1 := andi main_v58 main_v62
  main_v63

def fn_part2 {F : FTy → Type} [FloatOps F] (main_arg7 : FVec F S4096x16 .f32) (main_arg8 : FVec F S16x4096 .f32) (main_arg9 : FVec F S4096x16 .f32) (main_arg10 : FVec F S16x1024 .f32) (main_arg11 : FVec F S4096x16 .f32) (main_arg12 : FVec F S16x1024 .f32) (main_v33 : IVec S_ 1) : IVec S_ 1 :=
  let main_v34 : FVec F S4096x16 .f32 := Host.absf main_arg7
  let main_cst_12 : FVec F S_ .f32 := constant S_ .f32 0x7F800000#32
  let main_v35 : FVec F S4096x16 .f32 := broadcastInDim S4096x16 ![] bcast_S_S4096x16 main_cst_12
  let main_v36 : IVec S4096x16 1 := cmpf .olt main_v34 main_v35
  let main_c_13 : IVec S_ 1 := constantI S_ 1 1#1
  let main_v37 : IVec S_ 1 := (fun x v => Host.reduce IntOp.andi x v reducesTo_S4096x16_S_d0_1 h_S_) main_v36 main_c_13
  let main_v38 : IVec S_ 1 := andi main_v33 main_v37
  let main_v39 : FVec F S16x4096 .f32 := Host.absf main_arg8
  let main_cst_14 : FVec F S_ .f32 := constant S_ .f32 0x7F800000#32
  let main_v40 : FVec F S16x4096 .f32 := broadcastInDim S16x4096 ![] bcast_S_S16x4096 main_cst_14
  let main_v41 : IVec S16x4096 1 := cmpf .olt main_v39 main_v40
  let main_c_15 : IVec S_ 1 := constantI S_ 1 1#1
  let main_v42 : IVec S_ 1 := (fun x v => Host.reduce IntOp.andi x v reducesTo_S16x4096_S_d0_1 h_S_) main_v41 main_c_15
  let main_v43 : IVec S_ 1 := andi main_v38 main_v42
  let main_v44 : FVec F S4096x16 .f32 := Host.absf main_arg9
  let main_cst_16 : FVec F S_ .f32 := constant S_ .f32 0x7F800000#32
  let main_v45 : FVec F S4096x16 .f32 := broadcastInDim S4096x16 ![] bcast_S_S4096x16 main_cst_16
  let main_v46 : IVec S4096x16 1 := cmpf .olt main_v44 main_v45
  let main_c_17 : IVec S_ 1 := constantI S_ 1 1#1
  let main_v47 : IVec S_ 1 := (fun x v => Host.reduce IntOp.andi x v reducesTo_S4096x16_S_d0_1 h_S_) main_v46 main_c_17
  let main_v48 : IVec S_ 1 := andi main_v43 main_v47
  let main_v49 : FVec F S16x1024 .f32 := Host.absf main_arg10
  let main_cst_18 : FVec F S_ .f32 := constant S_ .f32 0x7F800000#32
  let main_v50 : FVec F S16x1024 .f32 := broadcastInDim S16x1024 ![] bcast_S_S16x1024 main_cst_18
  fn_part3 (F := F) main_arg11 main_arg12 main_v48 main_v49 main_v50

def fn_part1 {F : FTy → Type} [FloatOps F] (main_arg4 : FVec F S4096 .f32) (main_arg5 : FVec F S1024 .f32) (main_arg6 : FVec F S1024 .f32) (main_arg7 : FVec F S4096x16 .f32) (main_arg8 : FVec F S16x4096 .f32) (main_arg9 : FVec F S4096x16 .f32) (main_arg10 : FVec F S16x1024 .f32) (main_arg11 : FVec F S4096x16 .f32) (main_arg12 : FVec F S16x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x2048x4096 .f32) (main_arg1 : FVec F S4096x4096 .f32) (main_arg2 : FVec F S1024x4096 .f32) (main_arg3 : FVec F S1024x4096 .f32) (main_arg4 : FVec F S4096 .f32) (main_arg5 : FVec F S1024 .f32) (main_arg6 : FVec F S1024 .f32) (main_arg7 : FVec F S4096x16 .f32) (main_arg8 : FVec F S16x4096 .f32) (main_arg9 : FVec F S4096x16 .f32) (main_arg10 : FVec F S16x1024 .f32) (main_arg11 : FVec F S4096x16 .f32) (main_arg12 : FVec F S16x1024 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_arg9 main_arg10 main_arg11 main_arg12 main_v13 main_v16
-- ==== Kernel.lean ====
abbrev S4x2048x4096 : Shape := ⟨3, ![4, 2048, 4096]⟩
abbrev S4096x4096 : Shape := ⟨2, ![4096, 4096]⟩
abbrev S1024x4096 : Shape := ⟨2, ![1024, 4096]⟩
abbrev S4096 : Shape := ⟨1, ![4096]⟩
abbrev S1024 : Shape := ⟨1, ![1024]⟩
abbrev S4096x16 : Shape := ⟨2, ![4096, 16]⟩
abbrev S16x4096 : Shape := ⟨2, ![16, 4096]⟩
abbrev S16x1024 : Shape := ⟨2, ![16, 1024]⟩
abbrev S8192x4096 : Shape := ⟨2, ![8192, 4096]⟩
abbrev S4096x1024 : Shape := ⟨2, ![4096, 1024]⟩
abbrev S1x4096 : Shape := ⟨2, ![1, 4096]⟩
abbrev S1x1024 : Shape := ⟨2, ![1, 1024]⟩
abbrev S256x4096 : Shape := ⟨2, ![256, 4096]⟩
abbrev S256x1024 : Shape := ⟨2, ![256, 1024]⟩
abbrev S256x16 : Shape := ⟨2, ![256, 16]⟩
abbrev S8192x1024 : Shape := ⟨2, ![8192, 1024]⟩
abbrev S4x2048x1024 : Shape := ⟨3, ![4, 2048, 1024]⟩

abbrev nBuf : Space → Nat
  | .hbm => 36
  | .vmem => 27
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S4096, .f32⟩
  | .hbm, ⟨5, _⟩ => ⟨S1024, .f32⟩
  | .hbm, ⟨6, _⟩ => ⟨S1024, .f32⟩
  | .hbm, ⟨7, _⟩ => ⟨S4096x16, .f32⟩
  | .hbm, ⟨8, _⟩ => ⟨S16x4096, .f32⟩
  | .hbm, ⟨9, _⟩ => ⟨S4096x16, .f32⟩
  | .hbm, ⟨10, _⟩ => ⟨S16x1024, .f32⟩
  | .hbm, ⟨11, _⟩ => ⟨S4096x16, .f32⟩
  | .hbm, ⟨12, _⟩ => ⟨S16x1024, .f32⟩
  | .hbm, ⟨13, _⟩ => ⟨S8192x4096, .f32⟩
  | .hbm, ⟨14, _⟩ => ⟨S8192x4096, .bf16⟩
  | .hbm, ⟨15, _⟩ => ⟨S4096x4096, .f32⟩
  | .hbm, ⟨16, _⟩ => ⟨S4096x4096, .bf16⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S4096x1024, .bf16⟩
  | .hbm, ⟨21, _⟩ => ⟨S4096x16, .bf16⟩
  | .hbm, ⟨22, _⟩ => ⟨S4096x16, .bf16⟩
  | .hbm, ⟨23, _⟩ => ⟨S4096x16, .bf16⟩
  | .hbm, ⟨24, _⟩ => ⟨S16x4096, .bf16⟩
  | .hbm, ⟨25, _⟩ => ⟨S16x1024, .bf16⟩
  | .hbm, ⟨26, _⟩ => ⟨S16x1024, .bf16⟩
  | .hbm, ⟨27, _⟩ => ⟨S1x4096, .f32⟩
  | .hbm, ⟨28, _⟩ => ⟨S1x1024, .f32⟩
  | .hbm, ⟨29, _⟩ => ⟨S1x1024, .f32⟩
  | .hbm, ⟨30, _⟩ => ⟨S8192x4096, .f32⟩
  | .hbm, ⟨31, _⟩ => ⟨S8192x1024, .f32⟩
  | .hbm, ⟨32, _⟩ => ⟨S8192x1024, .f32⟩
  | .hbm, ⟨33, _⟩ => ⟨S4x2048x4096, .f32⟩
  | .hbm, ⟨34, _⟩ => ⟨S4x2048x1024, .f32⟩
  | .hbm, ⟨35, _⟩ => ⟨S4x2048x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S4096x1024, .bf16⟩
  | .local _ .vmem, ⟨4, _⟩ => ⟨S4096x16, .bf16⟩
  | .local _ .vmem, ⟨5, _⟩ => ⟨S16x1024, .bf16⟩
  | .local _ .vmem, ⟨6, _⟩ => ⟨S16x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x4096, .bf16⟩
  | .local _ .vmem, ⟨12, _⟩ => ⟨S256x4096, .bf16⟩
  | .local _ .vmem, ⟨13, _⟩ => ⟨S4096x1024, .bf16⟩
  | .local _ .vmem, ⟨14, _⟩ => ⟨S4096x16, .bf16⟩
  | .local _ .vmem, ⟨15, _⟩ => ⟨S16x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x4096, .bf16⟩
  | .local _ .vmem, ⟨20, _⟩ => ⟨S256x4096, .bf16⟩
  | .local _ .vmem, ⟨21, _⟩ => ⟨S4096x1024, .bf16⟩
  | .local _ .vmem, ⟨22, _⟩ => ⟨S4096x16, .bf16⟩
  | .local _ .vmem, ⟨23, _⟩ => ⟨S16x1024, .bf16⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![1, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S4096x16 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S16x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![1, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S4096x16 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S16x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  shapeCasts_S4x2048x4096_S8192x4096 : S4x2048x4096.ShapeCasts S8192x4096
  bitsLt_bf16_f32 : FTy.bits .bf16 < FTy.bits .f32
  transposes_S4096x4096_S4096x4096_1_0 : S4096x4096.Transposes [1, 0] S4096x4096
  transposes_S1024x4096_S4096x1024_1_0 : S1024x4096.Transposes [1, 0] S4096x1024
  bcast_S4096_S1x4096_1 : S4096.BroadcastsInDim S1x4096 (![1] : Fin 1 → Fin S1x4096.rank)
  bcast_S1024_S1x1024_1 : S1024.BroadcastsInDim S1x1024 (![1] : Fin 1 → Fin S1x1024.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S8192x4096_S4x2048x4096 : S8192x4096.ShapeCasts S4x2048x4096
  shapeCasts_S8192x1024_S4x2048x1024 : S8192x1024.ShapeCasts S4x2048x1024
  dot_S256x4096_S4096x1024_S256x1024_1_0_0_1_n_n_wf : DotDims.WF S256x4096 S4096x1024 S256x1024 [1] [0] [0] [1] [] []
  dot_S256x4096_S4096x16_S256x16_1_0_0_1_n_n_wf : DotDims.WF S256x4096 S4096x16 S256x16 [1] [0] [0] [1] [] []
  dot_S256x16_S16x1024_S256x1024_1_0_0_1_n_n_wf : DotDims.WF S256x16 S16x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .bf16 = 32 ∨ (Rect.block (s := S4096x16) S4096x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x4096.size a
  hwx0_5 : ∀ i : grid0.Coords, EltTy.bits .f32 = 32 ∨ (Rect.block (s := S8192x4096) S256x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .bf16 = 32 ∨ (Rect.block (s := S8192x4096) S256x4096.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x16.size a ≤ S4096x16.size a
  hwx1_2 : ∀ i : grid1.Coords, EltTy.bits .bf16 = 32 ∨ (Rect.block (s := S4096x16) S4096x16.size (cc1_transform_2 i) (hinb1_2 i)).WholeWords (EltTy.packing .bf16)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S16x1024.size a ≤ S16x1024.size a
  hwx1_3 : ∀ i : grid1.Coords, EltTy.bits .bf16 = 32 ∨ (Rect.block (s := S16x1024) S16x1024.size (cc1_transform_3 i) (hinb1_3 i)).WholeWords (EltTy.packing .bf16)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S8192x1024.size a
  hwx1_5 : ∀ i : grid1.Coords, EltTy.bits .f32 = 32 ∨ (Rect.block (s := S8192x1024) S256x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .bf16 = 32 ∨ (Rect.block (s := S8192x4096) S256x4096.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S4096x1024.size a ≤ S4096x1024.size a
  hwx2_1 : ∀ i : grid2.Coords, EltTy.bits .bf16 = 32 ∨ (Rect.block (s := S4096x1024) S4096x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x16.size a ≤ S4096x16.size a
  hwx2_2 : ∀ i : grid2.Coords, EltTy.bits .bf16 = 32 ∨ (Rect.block (s := S4096x16) S4096x16.size (cc2_transform_2 i) (hinb2_2 i)).WholeWords (EltTy.packing .bf16)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S16x1024.size a ≤ S16x1024.size a
  hwx2_3 : ∀ i : grid2.Coords, EltTy.bits .bf16 = 32 ∨ (Rect.block (s := S16x1024) S16x1024.size (cc2_transform_3 i) (hinb2_3 i)).WholeWords (EltTy.packing .bf16)
  hstage2_4 : ∀ j, (stage2_4 j).IsWhole
  nbuf2_4 : grid2.bufCount reads2_4 false = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1024.size a ≤ S8192x1024.size a
  hwx2_5 : ∀ i : grid2.Coords, EltTy.bits .f32 = 32 ∨ (Rect.block (s := S8192x1024) S256x1024.size (cc2_transform_5 i) (hinb2_5 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x1024.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4096x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S16x1024.size cc1_transform_3 reads1_3 false false 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x1024.size cc1_transform_4 reads1_4 false false 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S4096x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4096x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S16x1024.size cc2_transform_3 reads2_3 false false 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x1024.size cc2_transform_4 reads2_4 false false 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S256x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S1024x4096 : Shape := ⟨2, ![1024, 4096]⟩
abbrev S4096 : Shape := ⟨1, ![4096]⟩
abbrev S1024 : Shape := ⟨1, ![1024]⟩
abbrev S4096x16 : Shape := ⟨2, ![4096, 16]⟩
abbrev S16x4096 : Shape := ⟨2, ![16, 4096]⟩
abbrev S16x1024 : Shape := ⟨2, ![16, 1024]⟩
abbrev S4x2048x16 : Shape := ⟨3, ![4, 2048, 16]⟩
abbrev S_ : Shape := ⟨0, ![]⟩
abbrev S1x1x4096 : Shape := ⟨3, ![1, 1, 4096]⟩
abbrev S4x2048x1024 : Shape := ⟨3, ![4, 2048, 1024]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S4096, .f32⟩
  | .hbm, ⟨5, _⟩ => ⟨S1024, .f32⟩
  | .hbm, ⟨6, _⟩ => ⟨S1024, .f32⟩
  | .hbm, ⟨7, _⟩ => ⟨S4096x16, .f32⟩
  | .hbm, ⟨8, _⟩ => ⟨S16x4096, .f32⟩
  | .hbm, ⟨9, _⟩ => ⟨S4096x16, .f32⟩
  | .hbm, ⟨10, _⟩ => ⟨S16x1024, .f32⟩
  | .hbm, ⟨11, _⟩ => ⟨S4096x16, .f32⟩
  | .hbm, ⟨12, _⟩ => ⟨S16x1024, .f32⟩
  | .hbm, ⟨13, _⟩ => ⟨S4x2048x4096, .f32⟩
  | .hbm, ⟨14, _⟩ => ⟨S4x2048x16, .f32⟩
  | .hbm, ⟨15, _⟩ => ⟨S4x2048x4096, .f32⟩
  | .hbm, ⟨16, _⟩ => ⟨S_, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | .hbm, ⟨23, _⟩ => ⟨S4x2048x1024, .f32⟩
  | .hbm, ⟨24, _⟩ => ⟨S4x2048x16, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x16, .f32⟩
  | .hbm, ⟨35, _⟩ => ⟨S4x2048x1024, .f32⟩
  | .hbm, ⟨36, _⟩ => ⟨S_, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x1024 : S_.BroadcastsInDim S4x2048x1024 (![] : Fin 0 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x4096_S4096x4096_S4x2048x4096_2_1_01_0_n_n_wf : DotDims.WF S4x2048x4096 S4096x4096 S4x2048x4096 [2] [1] [0, 1] [0] [] []
  dot_S4x2048x4096_S4096x16_S4x2048x16_2_0_01_1_n_n_wf : DotDims.WF S4x2048x4096 S4096x16 S4x2048x16 [2] [0] [0, 1] [1] [] []
  dot_S4x2048x16_S16x4096_S4x2048x4096_2_0_01_1_n_n_wf : DotDims.WF S4x2048x16 S16x4096 S4x2048x4096 [2] [0] [0, 1] [1] [] []
  dot_S4x2048x4096_S1024x4096_S4x2048x1024_2_1_01_0_n_n_wf : DotDims.WF S4x2048x4096 S1024x4096 S4x2048x1024 [2] [1] [0, 1] [0] [] []
  dot_S4x2048x16_S16x1024_S4x2048x1024_2_0_01_1_n_n_wf : DotDims.WF S4x2048x16 S16x1024 S4x2048x1024 [2] [0] [0, 1] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S4096x16_S4x2048x16_2_0_01_1_n_n : DotDims S4x2048x4096 S4096x16 S4x2048x16 where
  lhsContracting := [2]
  rhsContracting := [0]
  lhsNonContracting := [0, 1]
  rhsNonContracting := [1]
  lhsBatch := []
  rhsBatch := []
  wf := dot_S4x2048x4096_S4096x16_S4x2048x16_2_0_01_1_n_n_wf
def dot_S4x2048x16_S16x4096_S4x2048x4096_2_0_01_1_n_n : DotDims S4x2048x16 S16x4096 S4x2048x4096 where
  lhsContracting := [2]
  rhsContracting := [0]
  lhsNonContracting := [0, 1]
  rhsNonContracting := [1]
  lhsBatch := []
  rhsBatch := []
  wf := dot_S4x2048x16_S16x4096_S4x2048x4096_2_0_01_1_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf
def dot_S4x2048x16_S16x1024_S4x2048x1024_2_0_01_1_n_n : DotDims S4x2048x16 S16x1024 S4x2048x1024 where
  lhsContracting := [2]
  rhsContracting := [0]
  lhsNonContracting := [0, 1]
  rhsNonContracting := [1]
  lhsBatch := []
  rhsBatch := []
  wf := dot_S4x2048x16_S16x1024_S4x2048x1024_2_0_01_1_n_n_wf

class Facts : Prop extends Facts₀ where

variable [Facts]
-- ==== Proof.KernelRun.lean ====
/-
  The idealized kernel program's run with every unscoped buffer NAMED at its final contents.

  The program is five segments: the host operations that flatten, transpose and recast the arguments, three
  tiled projections (one per head: q, k, v), and the host operations that give the three results their
  batch × sequence shape back.  The generated frame certificate threads one valuation of the buffers through
  the five segments (`Gen.W0` … `Gen.W5`: each segment's entry contents are the previous segment's exit
  contents) but its conclusion keeps only "the arguments end unchanged".  Here the same launch theorem of the
  library is applied to the same generated segments with the conclusion left as strong as the library proves
  it: in every final state, every buffer that outlives the call holds what the last valuation `Gen.W5` says.
  The value of the three results is then read off `Gen.W5` (the next modules), with no further reasoning
  about executions.
-/
import proofs.«166460_j61770219651785_2_alg».proof.Proof.Gen.KernelIdeal.Frame

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's launch theorem finds its implicit arguments by unifying its conclusion with the statement, which
-- takes unfolding plain definitions in a metavariable's type
set_option backward.isDefEq.respectTransparency.types false in
/-- Every weakly fair execution of the program terminates without a fault, and in its final state every buffer that
    outlives the call holds the contents the last valuation of the generated fold gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    -- the program is the run of its five segments
    (fun c Q => by rw [main_run m ρ c])
    -- the three tiled calls are three different pipelines
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch's ghost state is dealt as it stands; no core is given anything beside it
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- a core starts holding every unscoped buffer at the launch memory and ends holding them at the last valuation
    (T₀ := fun c => iprop(StableHlo.held (c : Thread nD τ) (Pipeline.ucRefs τ sig) (W0 m ρ c) ∗ R c)) (Tₙ := Tₙ m ρ)
    -- each segment is entered from what the one before it leaves; the last one's exit regrouped
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    -- the launch memory, the generator register and "nothing owed" make the first thread state
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    -- holding a buffer at some contents in the last thread state, the final memory has those contents
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Named

end
-- ==== Proof.LibTransposeSlice.lean ====
/-
  Two layout operations on matrices read at an entry, for any sizes and any element type.

  * `transpose2_apply`: the transposition of a matrix `[a, b]` to `[b, a]` reads, at `(q, p)`, the operand at
    `(p, q)`.  With `a = 1` this is a row made a column.
  * `slice_col_apply`: rows `off … off + n - 1` of a one-column matrix `[T, 1]` read, at `(p, 0)`, the
    operand at `(off + p, 0)`.
-/
import Idealize.ShloMosaic.Lib.ValueIdx
import Idealize.ShloMosaic.Lib.Pipeline.Value

noncomputable section

namespace Cert.Lib.TransposeSlice

open Idealize.ShloMosaic Idealize.ShloMosaic.ValueIdx

/-- A matrix transposed reads, at `(q, p)`, the operand at `(p, q)`. -/
theorem transpose2_apply {α : Type} {a b : ℕ} (x : (⟨2, ![a, b]⟩ : Shape).Idx → α)
    (h : (⟨2, ![a, b]⟩ : Shape).Transposes [1, 0] ⟨2, ![b, a]⟩) (p : Fin a) (q : Fin b) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- Rows `off …` of a one-column matrix read, at `(p, 0)`, the operand at `(off + p, 0)`. -/
theorem slice_col_apply {α : Type} {T n : ℕ} (off : ℕ) (x : (⟨2, ![T, 1]⟩ : Shape).Idx → α)
    (h : (⟨2, ![T, 1]⟩ : Shape).Slices ![off, 0] ⟨2, ![n, 1]⟩) (p : Fin n) (hp : off + p.val < T) :
    extractStridedSlice ⟨2, ![n, 1]⟩ ![off, 0] x h (ix2 p (0 : Fin 1)) = x (ix2 ⟨off + p.val, hp⟩ (0 : Fin 1)) :=
  extractStridedSlice_apply ![off, 0] x h (ix2 p (0 : Fin 1)) (ix2 ⟨off + p.val, hp⟩ (0 : Fin 1)) fun ax => by
    match ax with
    | ⟨0, _⟩ => rfl
    | ⟨1, _⟩ => rfl

end Cert.Lib.TransposeSlice

end
-- ==== Proof.Entry.lean ====
/-
  What the host operations before the first tiled call leave in the arrays the calls read, entry by entry.

  The input is flattened to rows (row 2048·b + s is the input's row (b, s)) and recast to bf16; each weight is
  transposed and recast; the thin factors are recast; each bias becomes a one-row matrix.  At the ideal
  instance a recast is the identity, so every entry of these arrays is an entry of an argument.
-/
import proofs.«166460_j61770219651785_2_alg».proof.Proof.Gen.KernelIdeal.Frame
import proofs.«166460_j61770219651785_2_alg».proof.Proof.LibTransposeSlice
import Idealize.ShloMosaic.Lib.Pipeline.Value
import Idealize.ShloMosaic.Lib.ValueIdx
import Idealize.ShloMosaic.Lib.StableHlo.Run

noncomputable section

namespace Cert.KernelIdeal.Entry

open Idealize.ShloMosaic Idealize.ShloMosaic.TcCoe Idealize.ShloMosaic.ValueIdx Idealize.ShloMosaic.StableHlo
open Idealize.SL Idealize.SL.Sem
open Cert.KernelIdeal Cert.KernelIdeal.Gen Cert.Lib.TransposeSlice

variable (m : (ℓ : Loc nD τ sig) → Buf (Elt Ideal) ℓ) (ρ : Dev nD → PrngReg)

/-! ## The arrays as terms of the arguments -/

theorem x_eq (c : Dev nD) : (V1 m ρ c main_v1 : S8192x4096.Idx → EReal)
    = (truncf .bf16 (shapeCast S8192x4096 (m ((c : Thread nD τ).loc main_arg0)) shapeCasts_S4x2048x4096_S8192x4096 : FVec Ideal S8192x4096 .f32) bitsLt_bf16_f32 : FVec Ideal S8192x4096 .bf16) := by
  show StableHlo.after hostOps0 (W0 m ρ c) (Proc.devRef .tc main_v1) = _
  after_results <;> rfl

theorem wq_eq (c : Dev nD) : (V1 m ρ c main_v3 : S4096x4096.Idx → EReal)
    = (truncf .bf16 (transpose S4096x4096 [1, 0] (m ((c : Thread nD τ).loc main_arg1)) transposes_S4096x4096_S4096x4096_1_0 : FVec Ideal S4096x4096 .f32) bitsLt_bf16_f32 : FVec Ideal S4096x4096 .bf16) := by
  show StableHlo.after hostOps0 (W0 m ρ c) (Proc.devRef .tc main_v3) = _
  after_results <;> rfl

theorem wk_eq (c : Dev nD) : (V1 m ρ c main_v5 : S4096x1024.Idx → EReal)
    = (truncf .bf16 (transpose S4096x1024 [1, 0] (m ((c : Thread nD τ).loc main_arg2)) transposes_S1024x4096_S4096x1024_1_0 : FVec Ideal S4096x1024 .f32) bitsLt_bf16_f32 : FVec Ideal S4096x1024 .bf16) := by
  show StableHlo.after hostOps0 (W0 m ρ c) (Proc.devRef .tc main_v5) = _
  after_results <;> rfl

theorem wv_eq (c : Dev nD) : (V1 m ρ c main_v7 : S4096x1024.Idx → EReal)
    = (truncf .bf16 (transpose S4096x1024 [1, 0] (m ((c : Thread nD τ).loc main_arg3)) transposes_S1024x4096_S4096x1024_1_0 : FVec Ideal S4096x1024 .f32) bitsLt_bf16_f32 : FVec Ideal S4096x1024 .bf16) := by
  show StableHlo.after hostOps0 (W0 m ρ c) (Proc.devRef .tc main_v7) = _
  after_results <;> rfl

theorem aq_eq (c : Dev nD) : (V1 m ρ c main_v8 : S4096x16.Idx → EReal) = (truncf .bf16 (m ((c : Thread nD τ).loc main_arg7) : FVec Ideal S4096x16 .f32) bitsLt_bf16_f32 : FVec Ideal S4096x16 .bf16) := by
  show StableHlo.after hostOps0 (W0 m ρ c) (Proc.devRef .tc main_v8) = _
  after_results <;> rfl

theorem ak_eq (c : Dev nD) : (V1 m ρ c main_v9 : S4096x16.Idx → EReal) = (truncf .bf16 (m ((c : Thread nD τ).loc main_arg9) : FVec Ideal S4096x16 .f32) bitsLt_bf16_f32 : FVec Ideal S4096x16 .bf16) := by
  show StableHlo.after hostOps0 (W0 m ρ c) (Proc.devRef .tc main_v9) = _
  after_results <;> rfl

theorem av_eq (c : Dev nD) : (V1 m ρ c main_v10 : S4096x16.Idx → EReal) = (truncf .bf16 (m ((c : Thread nD τ).loc main_arg11) : FVec Ideal S4096x16 .f32) bitsLt_bf16_f32 : FVec Ideal S4096x16 .bf16) := by
  show StableHlo.after hostOps0 (W0 m ρ c) (Proc.devRef .tc main_v10) = _
  after_results <;> rfl

theorem bq_eq (c : Dev nD) : (V1 m ρ c main_v11 : S16x4096.Idx → EReal) = (truncf .bf16 (m ((c : Thread nD τ).loc main_arg8) : FVec Ideal S16x4096 .f32) bitsLt_bf16_f32 : FVec Ideal S16x4096 .bf16) := by
  show StableHlo.after hostOps0 (W0 m ρ c) (Proc.devRef .tc main_v11) = _
  after_results <;> rfl

theorem bk_eq (c : Dev nD) : (V1 m ρ c main_v12 : S16x1024.Idx → EReal) = (truncf .bf16 (m ((c : Thread nD τ).loc main_arg10) : FVec Ideal S16x1024 .f32) bitsLt_bf16_f32 : FVec Ideal S16x1024 .bf16) := by
  show StableHlo.after hostOps0 (W0 m ρ c) (Proc.devRef .tc main_v12) = _
  after_results <;> rfl

theorem bv_eq (c : Dev nD) : (V1 m ρ c main_v13 : S16x1024.Idx → EReal) = (truncf .bf16 (m ((c : Thread nD τ).loc main_arg12) : FVec Ideal S16x1024 .f32) bitsLt_bf16_f32 : FVec Ideal S16x1024 .bf16) := by
  show StableHlo.after hostOps0 (W0 m ρ c) (Proc.devRef .tc main_v13) = _
  after_results <;> rfl

theorem βq_eq (c : Dev nD) : (V1 m ρ c main_v14 : S1x4096.Idx → EReal) = (broadcastInDim S1x4096 ![1] bcast_S4096_S1x4096_1 (m ((c : Thread nD τ).loc main_arg4) : S4096.Idx → EReal) : S1x4096.Idx → EReal) := by
  show StableHlo.after hostOps0 (W0 m ρ c) (Proc.devRef .tc main_v14) = _
  after_results <;> rfl

theorem βk_eq (c : Dev nD) : (V1 m ρ c main_v15 : S1x1024.Idx → EReal) = (broadcastInDim S1x1024 ![1] bcast_S1024_S1x1024_1 (m ((c : Thread nD τ).loc main_arg5) : S1024.Idx → EReal) : S1x1024.Idx → EReal) := by
  show StableHlo.after hostOps0 (W0 m ρ c) (Proc.devRef .tc main_v15) = _
  after_results <;> rfl

theorem βv_eq (c : Dev nD) : (V1 m ρ c main_v16 : S1x1024.Idx → EReal) = (broadcastInDim S1x1024 ![1] bcast_S1024_S1x1024_1 (m ((c : Thread nD τ).loc main_arg6) : S1024.Idx → EReal) : S1x1024.Idx → EReal) := by
  show StableHlo.after hostOps0 (W0 m ρ c) (Proc.devRef .tc main_v16) = _
  after_results <;> rfl

/-! ## The same, entry by entry -/

/-- Row `2048·b + s` of the flattened input is the input's row `(b, s)`. -/
theorem x_at (c : Dev nD) (b : Fin 4) (s : Fin 2048) (h : Fin 4096) (r : Fin 8192) (hr : r.val = b.val * 2048 + s.val) :
    V1 m ρ c main_v1 (ix2 r h) = m ((c : Thread nD τ).loc main_arg0) (ix3 b s h) := by
  rw [x_eq]
  show shapeCast S8192x4096 (m ((c : Thread nD τ).loc main_arg0)) shapeCasts_S4x2048x4096_S8192x4096 (ix2 r h) = _
  exact shapeCast_apply _ _ (ix2 r h) (ix3 b s h) (by
    rw [Shape.rowMajor_val_three, Shape.rowMajor_val_two]
    show (b.val * 2048 + s.val) * 4096 + h.val = r.val * 4096 + h.val
    rw [hr])

/-- The transposed weight at (h, o) is the weight at (o, h). -/
theorem wq_at (c : Dev nD) (h : Fin 4096) (o : Fin 4096) : V1 m ρ c main_v3 (ix2 h o) = m ((c : Thread nD τ).loc main_arg1) (ix2 o h) := by
  rw [wq_eq]
  exact transpose2_apply (m ((c : Thread nD τ).loc main_arg1)) transposes_S4096x4096_S4096x4096_1_0 o h

/-- The transposed weight at (h, o) is the weight at (o, h). -/
theorem wk_at (c : Dev nD) (h : Fin 4096) (o : Fin 1024) : V1 m ρ c main_v5 (ix2 h o) = m ((c : Thread nD τ).loc main_arg2) (ix2 o h) := by
  rw [wk_eq]
  exact transpose2_apply (m ((c : Thread nD τ).loc main_arg2)) transposes_S1024x4096_S4096x1024_1_0 o h

/-- The transposed weight at (h, o) is the weight at (o, h). -/
theorem wv_at (c : Dev nD) (h : Fin 4096) (o : Fin 1024) : V1 m ρ c main_v7 (ix2 h o) = m ((c : Thread nD τ).loc main_arg3) (ix2 o h) := by
  rw [wv_eq]
  exact transpose2_apply (m ((c : Thread nD τ).loc main_arg3)) transposes_S1024x4096_S4096x1024_1_0 o h

theorem aq_at (c : Dev nD) (i : Fin 4096) (j : Fin 16) : V1 m ρ c main_v8 (ix2 i j) = m ((c : Thread nD τ).loc main_arg7) (ix2 i j) := by
  rw [aq_eq]; rfl

theorem ak_at (c : Dev nD) (i : Fin 4096) (j : Fin 16) : V1 m ρ c main_v9 (ix2 i j) = m ((c : Thread nD τ).loc main_arg9) (ix2 i j) := by
  rw [ak_eq]; rfl

theorem av_at (c : Dev nD) (i : Fin 4096) (j : Fin 16) : V1 m ρ c main_v10 (ix2 i j) = m ((c : Thread nD τ).loc main_arg11) (ix2 i j) := by
  rw [av_eq]; rfl

theorem bq_at (c : Dev nD) (i : Fin 16) (j : Fin 4096) : V1 m ρ c main_v11 (ix2 i j) = m ((c : Thread nD τ).loc main_arg8) (ix2 i j) := by
  rw [bq_eq]; rfl

theorem bk_at (c : Dev nD) (i : Fin 16) (j : Fin 1024) : V1 m ρ c main_v12 (ix2 i j) = m ((c : Thread nD τ).loc main_arg10) (ix2 i j) := by
  rw [bk_eq]; rfl

theorem bv_at (c : Dev nD) (i : Fin 16) (j : Fin 1024) : V1 m ρ c main_v13 (ix2 i j) = m ((c : Thread nD τ).loc main_arg12) (ix2 i j) := by
  rw [bv_eq]; rfl

/-- The bias as a one-row matrix at (0, o) is the bias at o. -/
theorem βq_at (c : Dev nD) (o : Fin 4096) : V1 m ρ c main_v14 (ix2 (0 : Fin 1) o) = m ((c : Thread nD τ).loc main_arg4) (ix1 o) := by
  rw [βq_eq]
  exact broadcastInDim_apply _ bcast_S4096_S1x4096_1 (m ((c : Thread nD τ).loc main_arg4)) (ix2 (0 : Fin 1) o) (ix1 o) fun ax => by
    match ax with
    | ⟨0, _⟩ => show o.val = if (4096 : Nat) = 1 then 0 else o.val; rw [if_neg (by decide)]

/-- The bias as a one-row matrix at (0, o) is the bias at o. -/
theorem βk_at (c : Dev nD) (o : Fin 1024) : V1 m ρ c main_v15 (ix2 (0 : Fin 1) o) = m ((c : Thread nD τ).loc main_arg5) (ix1 o) := by
  rw [βk_eq]
  exact broadcastInDim_apply _ bcast_S1024_S1x1024_1 (m ((c : Thread nD τ).loc main_arg5)) (ix2 (0 : Fin 1) o) (ix1 o) fun ax => by
    match ax with
    | ⟨0, _⟩ => show o.val = if (1024 : Nat) = 1 then 0 else o.val; rw [if_neg (by decide)]

/-- The bias as a one-row matrix at (0, o) is the bias at o. -/
theorem βv_at (c : Dev nD) (o : Fin 1024) : V1 m ρ c main_v16 (ix2 (0 : Fin 1) o) = m ((c : Thread nD τ).loc main_arg6) (ix1 o) := by
  rw [βv_eq]
  exact broadcastInDim_apply _ bcast_S1024_S1x1024_1 (m ((c : Thread nD τ).loc main_arg6)) (ix2 (0 : Fin 1) o) (ix1 o) fun ax => by
    match ax with
    | ⟨0, _⟩ => show o.val = if (1024 : Nat) = 1 then 0 else o.val; rw [if_neg (by decide)]

end Cert.KernelIdeal.Entry

end
-- ==== Proof.Spec.lean ====
/-
  The function both programs compute, stated without either program.

  A projection with a low-rank update: for an input row `x[b,s,·]`, a weight matrix `W[o,·]`, a bias `β[o]`
  and two thin factors `A[·,k]`, `B[k,o]` (rank 16),

      out[b,s,o] = ( Σ_h x[b,s,h]·W[o,h]  +  2 · Σ_k ( Σ_h x[b,s,h]·A[h,k] ) · B[k,o] )  +  β[o].

  `proj3` is that entry over the arguments' own shapes.  `lora` is the same entry over the flattened and
  transposed operands the tiled program works on (rows `r = 2048·b + s`, the weight already transposed, the
  bias a one-row matrix).  `lora_congr` says the entry only depends on the row of the left operand, the
  column of the right ones and the two thin factors, entry by entry: it is what carries an entry of a tile
  to the same entry of the whole arrays, and the flattened operands to the arguments.  No law of the extended
  reals beyond congruence is used anywhere: both programs add and multiply in the same order.
-/
import Idealize.ShloMosaic.PureOps.Ideal
import Idealize.ShloMosaic.Lib.ValueIdx

noncomputable section

namespace Cert.LoraProj

open Idealize.ShloMosaic Idealize.ShloMosaic.ValueIdx

/-- The scaling factor as both programs spell it: the f32 word of 2.0, read at the ideal instance. It is the
    same word on both sides and is never evaluated. -/
abbrev two : EReal := Ideal.ofBits .f32 0x40000000#32

/-- The entry (r, o) over flattened operands: `X` rows × hidden, `Wt` hidden × outputs, `A` hidden × rank,
    `B` rank × outputs, `β` a one-row matrix over the outputs. -/
def lora {n K R d : Nat} (X : (⟨2, ![n, K]⟩ : Shape).Idx → EReal) (Wt : (⟨2, ![K, d]⟩ : Shape).Idx → EReal)
    (A : (⟨2, ![K, R]⟩ : Shape).Idx → EReal) (B : (⟨2, ![R, d]⟩ : Shape).Idx → EReal)
    (β : (⟨2, ![1, d]⟩ : Shape).Idx → EReal) (r : Fin n) (o : Fin d) : EReal :=
  ((∑ h : Fin K, X (ix2 r h) * Wt (ix2 h o))
      + two * ∑ k : Fin R, (∑ h : Fin K, X (ix2 r h) * A (ix2 h k)) * B (ix2 k o))
    + β (ix2 (0 : Fin 1) o)

/-- The entry (b, s, o) over the arguments as given: `x` batch × sequence × hidden, `W` outputs × hidden,
    `β` over the outputs, `A` hidden × rank, `B` rank × outputs. -/
def proj3 {nb ns K R d : Nat} (x : (⟨3, ![nb, ns, K]⟩ : Shape).Idx → EReal) (W : (⟨2, ![d, K]⟩ : Shape).Idx → EReal)
    (β : (⟨1, ![d]⟩ : Shape).Idx → EReal) (A : (⟨2, ![K, R]⟩ : Shape).Idx → EReal)
    (B : (⟨2, ![R, d]⟩ : Shape).Idx → EReal) (b : Fin nb) (s : Fin ns) (o : Fin d) : EReal :=
  ((∑ h : Fin K, x (ix3 b s h) * W (ix2 o h))
      + two * ∑ k : Fin R, (∑ h : Fin K, x (ix3 b s h) * A (ix2 h k)) * B (ix2 k o))
    + β (ix1 o)

/-- Two flattened entries agree when their operands agree on the row, the column and the thin factors. -/
theorem lora_congr {n n' K R d d' : Nat}
    (X : (⟨2, ![n, K]⟩ : Shape).Idx → EReal) (Wt : (⟨2, ![K, d]⟩ : Shape).Idx → EReal)
    (A : (⟨2, ![K, R]⟩ : Shape).Idx → EReal) (B : (⟨2, ![R, d]⟩ : Shape).Idx → EReal)
    (β : (⟨2, ![1, d]⟩ : Shape).Idx → EReal)
    (X' : (⟨2, ![n', K]⟩ : Shape).Idx → EReal) (Wt' : (⟨2, ![K, d']⟩ : Shape).Idx → EReal)
    (A' : (⟨2, ![K, R]⟩ : Shape).Idx → EReal) (B' : (⟨2, ![R, d']⟩ : Shape).Idx → EReal)
    (β' : (⟨2, ![1, d']⟩ : Shape).Idx → EReal)
    (r : Fin n) (o : Fin d) (r' : Fin n') (o' : Fin d')
    (hX : ∀ h, X (ix2 r h) = X' (ix2 r' h)) (hW : ∀ h, Wt (ix2 h o) = Wt' (ix2 h o'))
    (hA : ∀ h k, A (ix2 h k) = A' (ix2 h k)) (hB : ∀ k, B (ix2 k o) = B' (ix2 k o'))
    (hβ : β (ix2 (0 : Fin 1) o) = β' (ix2 (0 : Fin 1) o')) :
    lora X Wt A B β r o = lora X' Wt' A' B' β' r' o' := by
  unfold lora
  rw [hβ]
  refine congrArg (· + β' (ix2 (0 : Fin 1) o')) (congrArg₂ (· + ·) ?_ (congrArg (two * ·) ?_))
  · exact Finset.sum_congr rfl fun h _ => by rw [hX h, hW h]
  · refine Finset.sum_congr rfl fun k _ => ?_
    rw [hB k]
    exact congrArg (· * B' (ix2 k o')) (Finset.sum_congr rfl fun h _ => by rw [hX h, hA h k])

/-- A flattened entry is the entry over the arguments, when the flattened operands read the arguments. -/
theorem lora_eq_proj3 {n nb ns K R d : Nat}
    (X : (⟨2, ![n, K]⟩ : Shape).Idx → EReal) (Wt : (⟨2, ![K, d]⟩ : Shape).Idx → EReal)
    (A : (⟨2, ![K, R]⟩ : Shape).Idx → EReal) (B : (⟨2, ![R, d]⟩ : Shape).Idx → EReal)
    (β : (⟨2, ![1, d]⟩ : Shape).Idx → EReal)
    (x : (⟨3, ![nb, ns, K]⟩ : Shape).Idx → EReal) (W : (⟨2, ![d, K]⟩ : Shape).Idx → EReal)
    (β' : (⟨1, ![d]⟩ : Shape).Idx → EReal) (A' : (⟨2, ![K, R]⟩ : Shape).Idx → EReal)
    (B' : (⟨2, ![R, d]⟩ : Shape).Idx → EReal)
    (r : Fin n) (b : Fin nb) (s : Fin ns) (o : Fin d)
    (hX : ∀ h, X (ix2 r h) = x (ix3 b s h)) (hW : ∀ h, Wt (ix2 h o) = W (ix2 o h))
    (hA : ∀ h k, A (ix2 h k) = A' (ix2 h k)) (hB : ∀ k, B (ix2 k o) = B' (ix2 k o))
    (hβ : β (ix2 (0 : Fin 1) o) = β' (ix1 o)) :
    lora X Wt A B β r o = proj3 x W β' A' B' b s o := by
  unfold lora proj3
  rw [hβ]
  refine congrArg (· + β' (ix1 o)) (congrArg₂ (· + ·) ?_ (congrArg (two * ·) ?_))
  · exact Finset.sum_congr rfl fun h _ => by rw [hX h, hW h]
  · refine Finset.sum_congr rfl fun k _ => ?_
    rw [hB k]
    exact congrArg (· * B' (ix2 k o)) (Finset.sum_congr rfl fun h _ => by rw [hX h, hA h k])

end Cert.LoraProj

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.Payload.lean ====
/-
  What one tile of a projection computes, entry by entry, at the ideal instance.

  The body of each of the three tiled calls is the same text: from a 256-row block `x` of the flattened
  input, a 1024-column block `w` of the transposed weight, the whole thin factor `a`, a 1024-column block `b`
  of the other thin factor and a 1024-column block `β` of the bias row it stores

      (x·w + 2 · ((x·a)·b)) + β    (the row β repeated down the 256 rows).

  Each of the three products is a matrix product into the zero accumulator, which at the ideal instance is
  the plain sum over the contracted axis; the recast of `x·a` to bf16 before the last product is the identity
  there.  So entry (p, q) of the stored tile is `lora x w a b β p q` (Spec.lean).
-/
import proofs.«166460_j61770219651785_2_alg».proof.Proof.Gen.KernelIdeal.Skeleton
import proofs.«166460_j61770219651785_2_alg».proof.Proof.Spec
import proofs.«166460_j61770219651785_2_alg».proof.Proof.LibSplitContraction
import Idealize.ShloMosaic.Lib.Pipeline.Value

noncomputable section

namespace Cert.KernelIdeal.Tile

open Idealize.ShloMosaic Idealize.ShloMosaic.ValueIdx
open Cert.KernelIdeal Cert.KernelIdeal.Gen Cert.LoraProj Cert.Lib.SplitContraction

/-! ## The three products' index maps, coordinate by coordinate -/

abbrev Dxw := dot_S256x4096_S4096x1024_S256x1024_1_0_0_1_n_n
abbrev Dxa := dot_S256x4096_S4096x16_S256x16_1_0_0_1_n_n
abbrev Dab := dot_S256x16_S16x1024_S256x1024_1_0_0_1_n_n

theorem xw_l0 (j : S256x1024.Idx) (q : Dxw.contr.Idx) : (Dxw.lhsIdx j q 0).val = (j 0).val := by
  unfold DotDims.lhsIdx
  rw [dif_neg (show ¬(0 : Fin S256x4096.rank) ∈ Dxw.lhsBatch by decide), dif_pos (show (0 : Fin S256x4096.rank) ∈ Dxw.lhsNonContracting by decide)]
  rfl
theorem xw_l1 (j : S256x1024.Idx) (q : Dxw.contr.Idx) : (Dxw.lhsIdx j q 1).val = (q ⟨0, by decide⟩).val :=
  Dxw.lhsIdx_val_of_single rfl j q
theorem xw_r0 (j : S256x1024.Idx) (q : Dxw.contr.Idx) : (Dxw.rhsIdx j q 0).val = (q ⟨0, by decide⟩).val :=
  Dxw.rhsIdx_val_of_single rfl j q
theorem xw_r1 (j : S256x1024.Idx) (q : Dxw.contr.Idx) : (Dxw.rhsIdx j q 1).val = (j 1).val := by
  unfold DotDims.rhsIdx
  rw [dif_neg (show ¬(1 : Fin S4096x1024.rank) ∈ Dxw.rhsBatch by decide), dif_pos (show (1 : Fin S4096x1024.rank) ∈ Dxw.rhsNonContracting by decide)]
  rfl

theorem xa_l0 (j : S256x16.Idx) (q : Dxa.contr.Idx) : (Dxa.lhsIdx j q 0).val = (j 0).val := by
  unfold DotDims.lhsIdx
  rw [dif_neg (show ¬(0 : Fin S256x4096.rank) ∈ Dxa.lhsBatch by decide), dif_pos (show (0 : Fin S256x4096.rank) ∈ Dxa.lhsNonContracting by decide)]
  rfl
theorem xa_l1 (j : S256x16.Idx) (q : Dxa.contr.Idx) : (Dxa.lhsIdx j q 1).val = (q ⟨0, by decide⟩).val :=
  Dxa.lhsIdx_val_of_single rfl j q
theorem xa_r0 (j : S256x16.Idx) (q : Dxa.contr.Idx) : (Dxa.rhsIdx j q 0).val = (q ⟨0, by decide⟩).val :=
  Dxa.rhsIdx_val_of_single rfl j q
theorem xa_r1 (j : S256x16.Idx) (q : Dxa.contr.Idx) : (Dxa.rhsIdx j q 1).val = (j 1).val := by
  unfold DotDims.rhsIdx
  rw [dif_neg (show ¬(1 : Fin S4096x16.rank) ∈ Dxa.rhsBatch by decide), dif_pos (show (1 : Fin S4096x16.rank) ∈ Dxa.rhsNonContracting by decide)]
  rfl

theorem ab_l0 (j : S256x1024.Idx) (q : Dab.contr.Idx) : (Dab.lhsIdx j q 0).val = (j 0).val := by
  unfold DotDims.lhsIdx
  rw [dif_neg (show ¬(0 : Fin S256x16.rank) ∈ Dab.lhsBatch by decide), dif_pos (show (0 : Fin S256x16.rank) ∈ Dab.lhsNonContracting by decide)]
  rfl
theorem ab_l1 (j : S256x1024.Idx) (q : Dab.contr.Idx) : (Dab.lhsIdx j q 1).val = (q ⟨0, by decide⟩).val :=
  Dab.lhsIdx_val_of_single rfl j q
theorem ab_r0 (j : S256x1024.Idx) (q : Dab.contr.Idx) : (Dab.rhsIdx j q 0).val = (q ⟨0, by decide⟩).val :=
  Dab.rhsIdx_val_of_single rfl j q
theorem ab_r1 (j : S256x1024.Idx) (q : Dab.contr.Idx) : (Dab.rhsIdx j q 1).val = (j 1).val := by
  unfold DotDims.rhsIdx
  rw [dif_neg (show ¬(1 : Fin S16x1024.rank) ∈ Dab.rhsBatch by decide), dif_pos (show (1 : Fin S16x1024.rank) ∈ Dab.rhsNonContracting by decide)]
  rfl

/-! ## The tile's three products and its bias row, named -/

/-- `x·w`: the base product. -/
def base (x : FVec Ideal S256x4096 .bf16) (w : FVec Ideal S4096x1024 .bf16) : FVec Ideal S256x1024 .f32 :=
  matmul Dxw none x w (constant S256x1024 .f32 0x00000000#32)
/-- `x·a`: the input taken down to rank 16. -/
def down (x : FVec Ideal S256x4096 .bf16) (a : FVec Ideal S4096x16 .bf16) : FVec Ideal S256x16 .f32 :=
  matmul Dxa none x a (constant S256x16 .f32 0x00000000#32)
/-- `(x·a)·b`: the low-rank update, its left factor recast to bf16 on the way in. -/
def update (x : FVec Ideal S256x4096 .bf16) (a : FVec Ideal S4096x16 .bf16) (b : FVec Ideal S16x1024 .bf16) : FVec Ideal S256x1024 .f32 :=
  matmul Dab none (truncf .bf16 (down x a) bitsLt_bf16_f32) b (constant S256x1024 .f32 0x00000000#32)

/-- The stored value is `(base + 2·update) + the bias row repeated`: the body's casts of a block to its own
    shape are the identity. -/
theorem pay_eq (x : FVec Ideal S256x4096 .bf16) (w : FVec Ideal S4096x1024 .bf16) (a : FVec Ideal S4096x16 .bf16)
    (b : FVec Ideal S16x1024 .bf16) (β : FVec Ideal S1x1024 .f32) :
    k0_pay1 (F := Ideal) x w a b β
      = addf (addf (base x w) (mulf (broadcast S256x1024 (Scalar.ofBits .f32 0x40000000#32)) (update x a b)))
          (broadcastTo S256x1024 β broadcasts_S1x1024_S256x1024) := by
  unfold k0_pay1
  simp only [shapeCast_self]
  rfl

theorem base_at (x : FVec Ideal S256x4096 .bf16) (w : FVec Ideal S4096x1024 .bf16) (p : Fin 256) (q : Fin 1024) :
    base x w (ix2 p q) = ∑ h : Fin 4096, x (ix2 p h) * w (ix2 h q) :=
  matmul_zero_at Dxw rfl rfl xw_l0 xw_l1 xw_r0 xw_r1 none x w p q

theorem down_at (x : FVec Ideal S256x4096 .bf16) (a : FVec Ideal S4096x16 .bf16) (p : Fin 256) (k : Fin 16) :
    down x a (ix2 p k) = ∑ h : Fin 4096, x (ix2 p h) * a (ix2 h k) :=
  matmul_zero_at Dxa rfl rfl xa_l0 xa_l1 xa_r0 xa_r1 none x a p k

theorem update_at (x : FVec Ideal S256x4096 .bf16) (a : FVec Ideal S4096x16 .bf16) (b : FVec Ideal S16x1024 .bf16)
    (p : Fin 256) (q : Fin 1024) :
    update x a b (ix2 p q) = ∑ k : Fin 16, (∑ h : Fin 4096, x (ix2 p h) * a (ix2 h k)) * b (ix2 k q) :=
  (matmul_zero_at Dab rfl rfl ab_l0 ab_l1 ab_r0 ab_r1 none (truncf .bf16 (down x a) bitsLt_bf16_f32) b p q).trans
    (Finset.sum_congr rfl fun k _ => congrArg (· * b (ix2 k q)) (down_at x a p k))

/-- The bias row repeated down the rows reads the row's entry at the column. -/
theorem row_at (β : FVec Ideal S1x1024 .f32) (p : Fin 256) (q : Fin 1024) :
    broadcastTo S256x1024 β broadcasts_S1x1024_S256x1024 (ix2 p q) = β (ix2 (0 : Fin 1) q) :=
  broadcastTo_apply β broadcasts_S1x1024_S256x1024 (ix2 p q) (ix2 (0 : Fin 1) q) fun ax => by
    match ax with
    | ⟨0, _⟩ => show 0 = if (1 : Nat) = 1 then 0 else _; rw [if_pos rfl]
    | ⟨1, _⟩ => show q.val = if (1024 : Nat) = 1 then 0 else q.val; rw [if_neg (by decide)]

/-- Entry (p, q) of the tile the body stores. -/
theorem pay_at (x : FVec Ideal S256x4096 .bf16) (w : FVec Ideal S4096x1024 .bf16) (a : FVec Ideal S4096x16 .bf16)
    (b : FVec Ideal S16x1024 .bf16) (β : FVec Ideal S1x1024 .f32) (p : Fin 256) (q : Fin 1024) :
    k0_pay1 (F := Ideal) x w a b β (ix2 p q) = lora x w a b β p q := by
  rw [pay_eq]
  show (base x w (ix2 p q) + two * update x a b (ix2 p q)) + broadcastTo S256x1024 β broadcasts_S1x1024_S256x1024 (ix2 p q) = _
  rw [base_at, update_at, row_at]
  rfl

/-- The three calls' bodies are one text. -/
theorem pay1_eq : @k1_pay1 Ideal _ = @k0_pay1 Ideal _ := rfl
theorem pay2_eq : @k2_pay1 Ideal _ = @k0_pay1 Ideal _ := rfl

end Cert.KernelIdeal.Tile

end
-- ==== Proof.HeadQ.lean ====
/-
  The query projection's array after its tiled call, as ONE function of the arrays the call finds.

  The call walks a grid of 4 column blocks (outer) by 32 row blocks (inner).  At a point with row block `i` and
  column block `n` it reads rows 256·i … 256·i+255 of the flattened input, columns 1024·n … 1024·n+1023 of the
  transposed weight, of the second thin factor and of the bias row, and the whole first thin factor, and it
  writes the tile (rows 256·i …, columns 1024·n …) of the result.  Entry (p, q) of that tile is the entry
  (256·i + p, 1024·n + q) of `lora` over the whole arrays (Payload.lean's entry of a tile, then congruence:
  each block's entry is the whole array's entry at the shifted position).  The tiles cover the result, so
  the result array ends holding `lora` of the whole arrays at every entry.  The flattened input is only read,
  never written back, so it ends as the call found it.
-/
import proofs.«166460_j61770219651785_2_alg».proof.Proof.Gen.KernelIdeal.Frame
import proofs.«166460_j61770219651785_2_alg».proof.Proof.Payload
import Idealize.ShloMosaic.Lib.Pipeline.Value

set_option maxRecDepth 16384

noncomputable section

namespace Cert.KernelIdeal.HeadQ

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LoraProj Cert.KernelIdeal.Tile

variable (V : (c : Dev nD) → (b : Ref sig .tc) → Buf (Elt Ideal) ((c : Thread nD τ).loc b))

theorem hz : (![0, 0] : Fin 2 → Nat) = fun _ => 0 := funext fun a => by fin_cases a <;> rfl

/-- The result array as one function of the five arrays the call reads. -/
abbrev whole (X : S8192x4096.Idx → EReal) (Wt : S4096x4096.Idx → EReal) (A : S4096x16.Idx → EReal)
    (B : S16x4096.Idx → EReal) (β : S1x4096.Idx → EReal) : S8192x4096.Idx → EReal :=
  fun i => lora X Wt A B β (i 0) (i 1)

/-- The index maps, decided once over the grid: the input's row block is the result's; the weight's, the second
    factor's and the bias row's column block is the result's; every other block index is zero. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) < 32 ∧ win0_5.index t (1 : Fin 2) < 4 :=
  (by decide +kernel : ∀ t : Fin grid0.N, _)

/-- Every tile of the result is some point's. -/
theorem idx_onto : ∀ (q0 : Fin 32) (q1 : Fin 4), ∃ t : Fin cfg0.N, win0_5.index t = ![q0.val, q1.val] :=
  (by decide +kernel : ∀ (q0 : Fin 32) (q1 : Fin 4), ∃ t : Fin grid0.N, win0_5.index t = ![q0.val, q1.val])

/-- What a point writes back is its tile of `whole` of the arrays as the call finds them. -/
theorem flushed_eq (c : Dev nD) (t : Fin cfg0.N) :
    (dat0 V c).flushed 5 t = ((cfg0.win 5).blk t).view.read (Elt Ideal)
      (whole (V c main_v1) (V c main_v3) (V c main_v8) (V c main_v11) (V c main_v14)) := by
  show (cfg0.win 5).cut (grid0.coords t) ((dat0 V c).after 5 t) = _
  rw [after0_5]
  unfold out0_5
  rw [View.canon_unit_zero hz]
  simp only [View.ld_unit_zero (S := S256x4096) hz, View.ld_unit_zero (S := S4096x1024) hz,
    View.ld_unit_zero (S := S4096x16) hz, View.ld_unit_zero (S := S16x1024) hz, View.ld_unit_zero (S := S1x1024) hz]
  obtain ⟨e00, e01, e10, e11, e20, e21, e30, e31, e40, e41, b0, b1⟩ := idx_facts t
  funext j
  obtain ⟨p, q, rfl⟩ : ∃ (p : Fin 256) (q : Fin 1024), j = ix2 p q := ⟨j 0, j 1, eq_ix2 j⟩
  -- the entry's position in the whole result
  have hr : win0_5.index t (0 : Fin 2) * 256 + p.val < 8192 := by omega
  have ho : win0_5.index t (1 : Fin 2) * 1024 + q.val < 4096 := by omega
  have hemb : ((cfg0.win 5).blk t).view.emb (ix2 p q) = ix2 (⟨_, hr⟩ : Fin 8192) (⟨_, ho⟩ : Fin 4096) := by
    funext a; apply Fin.ext
    match a with
    | ⟨0, _⟩ => show win0_5.index t (0 : Fin 2) * 256 + 1 * p.val = win0_5.index t (0 : Fin 2) * 256 + p.val; omega
    | ⟨1, _⟩ => show win0_5.index t (1 : Fin 2) * 1024 + 1 * q.val = win0_5.index t (1 : Fin 2) * 1024 + q.val; omega
  show k0_pay1 (iblk0 V c 0 t) (iblk0 V c 1 t) (iblk0 V c 2 t) (iblk0 V c 3 t) (iblk0 V c 4 t) (ix2 p q)
      = whole (V c main_v1) (V c main_v3) (V c main_v8) (V c main_v11) (V c main_v14) (((cfg0.win 5).blk t).view.emb (ix2 p q))
  rw [hemb]
  refine (pay_at (iblk0 V c 0 t) (iblk0 V c 1 t) (iblk0 V c 2 t) (iblk0 V c 3 t) (iblk0 V c 4 t) p q).trans ?_
  refine lora_congr _ _ _ _ _ _ _ _ _ _ p q _ _ ?_ ?_ ?_ ?_ ?_
  · -- the input block's row p is the input's row 256·i + p
    intro h
    have e : ((cfg0.win 0).blk t).view.emb (ix2 p h) = ix2 (⟨_, hr⟩ : Fin 8192) h := by
      funext a; apply Fin.ext
      match a with
      | ⟨0, _⟩ => show win0_0.index t (0 : Fin 2) * 256 + 1 * p.val = win0_5.index t (0 : Fin 2) * 256 + p.val; omega
      | ⟨1, _⟩ => show win0_0.index t (1 : Fin 2) * 4096 + 1 * h.val = h.val; omega
    show V c main_v1 (((cfg0.win 0).blk t).view.emb (ix2 p h)) = _
    exact congrArg (V c main_v1) e
  · -- the weight block's column q is the weight's column 1024·n + q
    intro h
    have e : ((cfg0.win 1).blk t).view.emb (ix2 h q) = ix2 h (⟨_, ho⟩ : Fin 4096) := by
      funext a; apply Fin.ext
      match a with
      | ⟨0, _⟩ => show win0_1.index t (0 : Fin 2) * 4096 + 1 * h.val = h.val; omega
      | ⟨1, _⟩ => show win0_1.index t (1 : Fin 2) * 1024 + 1 * q.val = win0_5.index t (1 : Fin 2) * 1024 + q.val; omega
    show V c main_v3 (((cfg0.win 1).blk t).view.emb (ix2 h q)) = _
    exact congrArg (V c main_v3) e
  · -- the first thin factor is read whole
    intro h k
    have e : ((cfg0.win 2).blk t).view.emb (ix2 h k) = ix2 h k := by
      funext a; apply Fin.ext
      match a with
      | ⟨0, _⟩ => show win0_2.index t (0 : Fin 2) * 4096 + 1 * h.val = h.val; omega
      | ⟨1, _⟩ => show win0_2.index t (1 : Fin 2) * 16 + 1 * k.val = k.val; omega
    show V c main_v8 (((cfg0.win 2).blk t).view.emb (ix2 h k)) = _
    exact congrArg (V c main_v8) e
  · -- the second thin factor's column q is its column 1024·n + q
    intro k
    have e : ((cfg0.win 3).blk t).view.emb (ix2 k q) = ix2 k (⟨_, ho⟩ : Fin 4096) := by
      funext a; apply Fin.ext
      match a with
      | ⟨0, _⟩ => show win0_3.index t (0 : Fin 2) * 16 + 1 * k.val = k.val; omega
      | ⟨1, _⟩ => show win0_3.index t (1 : Fin 2) * 1024 + 1 * q.val = win0_5.index t (1 : Fin 2) * 1024 + q.val; omega
    show V c main_v11 (((cfg0.win 3).blk t).view.emb (ix2 k q)) = _
    exact congrArg (V c main_v11) e
  · -- the bias row's column q is its column 1024·n + q
    have e : ((cfg0.win 4).blk t).view.emb (ix2 (0 : Fin 1) q) = ix2 (0 : Fin 1) (⟨_, ho⟩ : Fin 4096) := by
      funext a; apply Fin.ext
      match a with
      | ⟨0, _⟩ => show win0_4.index t (0 : Fin 2) * 1 + 1 * 0 = 0; omega
      | ⟨1, _⟩ => show win0_4.index t (1 : Fin 2) * 1024 + 1 * q.val = win0_5.index t (1 : Fin 2) * 1024 + q.val; omega
    show V c main_v14 (((cfg0.win 4).blk t).view.emb (ix2 (0 : Fin 1) q)) = _
    exact congrArg (V c main_v14) e

/-- An entry of the result is in a point's tile iff each coordinate is in the tile's range. -/
theorem mem_blk (t : Fin cfg0.N) (i : S8192x4096.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v17).slice (win0_5.rect t)).set ↔ _
  rw [View.set_slice_whole, Rect.mem_set_unit]
  exact Iff.rfl

/-- Every entry of the result is in some point's tile: the point whose row block is row / 256 and whose column
    block is column / 1024. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 256, by omega⟩ ⟨(i 1).val / 1024, by omega⟩
  have q0 : win0_5.index t (0 : Fin 2) = (i 0).val / 256 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- The result array after the call. -/
theorem final (c : Dev nD) : (dat0 V c).arrAt 5 cfg0.N
    = whole (V c main_v1) (V c main_v3) (V c main_v8) (V c main_v11) (V c main_v14) :=
  (dat0 V c).arrAt_eq_of_cover 5 _ (fun t _ => flushed_eq V c t) (fun i => cover i)

/-- The flattened input is never written back. -/
theorem noflush_x : ∀ t : Fin cfg0.N, (cfg0.win 0).flush t = false :=
  (by decide +kernel : ∀ t : Fin grid0.N, win0_0.flush t = false)

/-- So it ends as the call found it. -/
theorem kept_x (c : Dev nD) : (dat0 V c).arrAt 0 cfg0.N = V c main_v1 :=
  funext fun i => ((dat0 V c).arrAt_apply_of_forall_not_mem 0 cfg0.N i
    (fun t _ hf => absurd hf (by rw [noflush_x t]; decide))).trans (congrFun (A_eq0 V c 0) i)

end Cert.KernelIdeal.HeadQ

end
-- ==== Proof.HeadK.lean ====
/-
  The key projection's array after its tiled call, as ONE function of the arrays the call finds.

  The call walks a grid of 1 column block (outer) by 32 row blocks (inner).  At a point with row block `i` and
  column block `n` it reads rows 256·i … 256·i+255 of the flattened input, columns 1024·n … 1024·n+1023 of the
  transposed weight, of the second thin factor and of the bias row, and the whole first thin factor, and it
  writes the tile (rows 256·i …, columns 1024·n …) of the result.  Entry (p, q) of that tile is the entry
  (256·i + p, 1024·n + q) of `lora` over the whole arrays (Payload.lean's entry of a tile, then congruence:
  each block's entry is the whole array's entry at the shifted position).  The tiles cover the result, so
  the result array ends holding `lora` of the whole arrays at every entry.  The flattened input is only read,
  never written back, so it ends as the call found it.
-/
import proofs.«166460_j61770219651785_2_alg».proof.Proof.Gen.KernelIdeal.Frame
import proofs.«166460_j61770219651785_2_alg».proof.Proof.Payload
import Idealize.ShloMosaic.Lib.Pipeline.Value

set_option maxRecDepth 16384

noncomputable section

namespace Cert.KernelIdeal.HeadK

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LoraProj Cert.KernelIdeal.Tile

variable (V : (c : Dev nD) → (b : Ref sig .tc) → Buf (Elt Ideal) ((c : Thread nD τ).loc b))

theorem hz : (![0, 0] : Fin 2 → Nat) = fun _ => 0 := funext fun a => by fin_cases a <;> rfl

/-- The result array as one function of the five arrays the call reads. -/
abbrev whole (X : S8192x4096.Idx → EReal) (Wt : S4096x1024.Idx → EReal) (A : S4096x16.Idx → EReal)
    (B : S16x1024.Idx → EReal) (β : S1x1024.Idx → EReal) : S8192x1024.Idx → EReal :=
  fun i => lora X Wt A B β (i 0) (i 1)

/-- The index maps, decided once over the grid: the input's row block is the result's; the weight's, the second
    factor's and the bias row's column block is the result's; every other block index is zero. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = win1_5.index t (1 : Fin 2)
    ∧ win1_2.index t (0 : Fin 2) = 0 ∧ win1_2.index t (1 : Fin 2) = 0
    ∧ win1_3.index t (0 : Fin 2) = 0 ∧ win1_3.index t (1 : Fin 2) = win1_5.index t (1 : Fin 2)
    ∧ win1_4.index t (0 : Fin 2) = 0 ∧ win1_4.index t (1 : Fin 2) = win1_5.index t (1 : Fin 2)
    ∧ win1_5.index t (0 : Fin 2) < 32 ∧ win1_5.index t (1 : Fin 2) < 1 :=
  (by decide +kernel : ∀ t : Fin grid1.N, _)

/-- Every tile of the result is some point's. -/
theorem idx_onto : ∀ (q0 : Fin 32) (q1 : Fin 1), ∃ t : Fin cfg1.N, win1_5.index t = ![q0.val, q1.val] :=
  (by decide +kernel : ∀ (q0 : Fin 32) (q1 : Fin 1), ∃ t : Fin grid1.N, win1_5.index t = ![q0.val, q1.val])

/-- What a point writes back is its tile of `whole` of the arrays as the call finds them. -/
theorem flushed_eq (c : Dev nD) (t : Fin cfg1.N) :
    (dat1 V c).flushed 5 t = ((cfg1.win 5).blk t).view.read (Elt Ideal)
      (whole (V c main_v1) (V c main_v5) (V c main_v9) (V c main_v12) (V c main_v15)) := by
  show (cfg1.win 5).cut (grid1.coords t) ((dat1 V c).after 5 t) = _
  rw [after1_5]
  unfold out1_5
  rw [View.canon_unit_zero hz]
  simp only [View.ld_unit_zero (S := S256x4096) hz, View.ld_unit_zero (S := S4096x1024) hz,
    View.ld_unit_zero (S := S4096x16) hz, View.ld_unit_zero (S := S16x1024) hz, View.ld_unit_zero (S := S1x1024) hz]
  obtain ⟨e00, e01, e10, e11, e20, e21, e30, e31, e40, e41, b0, b1⟩ := idx_facts t
  funext j
  obtain ⟨p, q, rfl⟩ : ∃ (p : Fin 256) (q : Fin 1024), j = ix2 p q := ⟨j 0, j 1, eq_ix2 j⟩
  -- the entry's position in the whole result
  have hr : win1_5.index t (0 : Fin 2) * 256 + p.val < 8192 := by omega
  have ho : win1_5.index t (1 : Fin 2) * 1024 + q.val < 1024 := by omega
  have hemb : ((cfg1.win 5).blk t).view.emb (ix2 p q) = ix2 (⟨_, hr⟩ : Fin 8192) (⟨_, ho⟩ : Fin 1024) := by
    funext a; apply Fin.ext
    match a with
    | ⟨0, _⟩ => show win1_5.index t (0 : Fin 2) * 256 + 1 * p.val = win1_5.index t (0 : Fin 2) * 256 + p.val; omega
    | ⟨1, _⟩ => show win1_5.index t (1 : Fin 2) * 1024 + 1 * q.val = win1_5.index t (1 : Fin 2) * 1024 + q.val; omega
  show k1_pay1 (iblk1 V c 0 t) (iblk1 V c 1 t) (iblk1 V c 2 t) (iblk1 V c 3 t) (iblk1 V c 4 t) (ix2 p q)
      = whole (V c main_v1) (V c main_v5) (V c main_v9) (V c main_v12) (V c main_v15) (((cfg1.win 5).blk t).view.emb (ix2 p q))
  rw [hemb, pay1_eq]
  refine (pay_at (iblk1 V c 0 t) (iblk1 V c 1 t) (iblk1 V c 2 t) (iblk1 V c 3 t) (iblk1 V c 4 t) p q).trans ?_
  refine lora_congr _ _ _ _ _ _ _ _ _ _ p q _ _ ?_ ?_ ?_ ?_ ?_
  · -- the input block's row p is the input's row 256·i + p
    intro h
    have e : ((cfg1.win 0).blk t).view.emb (ix2 p h) = ix2 (⟨_, hr⟩ : Fin 8192) h := by
      funext a; apply Fin.ext
      match a with
      | ⟨0, _⟩ => show win1_0.index t (0 : Fin 2) * 256 + 1 * p.val = win1_5.index t (0 : Fin 2) * 256 + p.val; omega
      | ⟨1, _⟩ => show win1_0.index t (1 : Fin 2) * 4096 + 1 * h.val = h.val; omega
    show V c main_v1 (((cfg1.win 0).blk t).view.emb (ix2 p h)) = _
    exact congrArg (V c main_v1) e
  · -- the weight block's column q is the weight's column 1024·n + q
    intro h
    have e : ((cfg1.win 1).blk t).view.emb (ix2 h q) = ix2 h (⟨_, ho⟩ : Fin 1024) := by
      funext a; apply Fin.ext
      match a with
      | ⟨0, _⟩ => show win1_1.index t (0 : Fin 2) * 4096 + 1 * h.val = h.val; omega
      | ⟨1, _⟩ => show win1_1.index t (1 : Fin 2) * 1024 + 1 * q.val = win1_5.index t (1 : Fin 2) * 1024 + q.val; omega
    show V c main_v5 (((cfg1.win 1).blk t).view.emb (ix2 h q)) = _
    exact congrArg (V c main_v5) e
  · -- the first thin factor is read whole
    intro h k
    have e : ((cfg1.win 2).blk t).view.emb (ix2 h k) = ix2 h k := by
      funext a; apply Fin.ext
      match a with
      | ⟨0, _⟩ => show win1_2.index t (0 : Fin 2) * 4096 + 1 * h.val = h.val; omega
      | ⟨1, _⟩ => show win1_2.index t (1 : Fin 2) * 16 + 1 * k.val = k.val; omega
    show V c main_v9 (((cfg1.win 2).blk t).view.emb (ix2 h k)) = _
    exact congrArg (V c main_v9) e
  · -- the second thin factor's column q is its column 1024·n + q
    intro k
    have e : ((cfg1.win 3).blk t).view.emb (ix2 k q) = ix2 k (⟨_, ho⟩ : Fin 1024) := by
      funext a; apply Fin.ext
      match a with
      | ⟨0, _⟩ => show win1_3.index t (0 : Fin 2) * 16 + 1 * k.val = k.val; omega
      | ⟨1, _⟩ => show win1_3.index t (1 : Fin 2) * 1024 + 1 * q.val = win1_5.index t (1 : Fin 2) * 1024 + q.val; omega
    show V c main_v12 (((cfg1.win 3).blk t).view.emb (ix2 k q)) = _
    exact congrArg (V c main_v12) e
  · -- the bias row's column q is its column 1024·n + q
    have e : ((cfg1.win 4).blk t).view.emb (ix2 (0 : Fin 1) q) = ix2 (0 : Fin 1) (⟨_, ho⟩ : Fin 1024) := by
      funext a; apply Fin.ext
      match a with
      | ⟨0, _⟩ => show win1_4.index t (0 : Fin 2) * 1 + 1 * 0 = 0; omega
      | ⟨1, _⟩ => show win1_4.index t (1 : Fin 2) * 1024 + 1 * q.val = win1_5.index t (1 : Fin 2) * 1024 + q.val; omega
    show V c main_v15 (((cfg1.win 4).blk t).view.emb (ix2 (0 : Fin 1) q)) = _
    exact congrArg (V c main_v15) e

/-- An entry of the result is in a point's tile iff each coordinate is in the tile's range. -/
theorem mem_blk (t : Fin cfg1.N) (i : S8192x1024.Idx) :
    i ∈ ((cfg1.win 5).blk t).view.set ↔ ∀ a : Fin 2, win1_5.index t a * S256x1024.size a ≤ (i a).val
      ∧ (i a).val < win1_5.index t a * S256x1024.size a + S256x1024.size a := by
  show i ∈ ((View.whole main_v18).slice (win1_5.rect t)).set ↔ _
  rw [View.set_slice_whole, Rect.mem_set_unit]
  exact Iff.rfl

/-- Every entry of the result is in some point's tile: the point whose row block is row / 256 and whose column
    block is column / 1024. -/
theorem cover (i : S8192x1024.Idx) :
    ∃ t : Fin cfg1.N, (cfg1.win 5).flush t = true ∧ i ∈ ((cfg1.win 5).blk t).view.set := by
  have hi0 : (i 0).val < 8192 := (i 0).isLt
  have hi1 : (i 1).val < 1024 := (i 1).isLt
  obtain ⟨t, ht⟩ := idx_onto ⟨(i 0).val / 256, by omega⟩ ⟨(i 1).val / 1024, by omega⟩
  have q0 : win1_5.index t (0 : Fin 2) = (i 0).val / 256 := congrFun ht 0
  have q1 : win1_5.index t (1 : Fin 2) = (i 1).val / 1024 := congrFun ht 1
  refine ⟨t, flush1_5 t, ?_⟩
  rw [mem_blk]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1024 ≤ (i 1).val ∧ (i 1).val < win1_5.index t (1 : Fin 2) * 1024 + 1024; omega

/-- The result array after the call. -/
theorem final (c : Dev nD) : (dat1 V c).arrAt 5 cfg1.N
    = whole (V c main_v1) (V c main_v5) (V c main_v9) (V c main_v12) (V c main_v15) :=
  (dat1 V c).arrAt_eq_of_cover 5 _ (fun t _ => flushed_eq V c t) (fun i => cover i)

/-- The flattened input is never written back. -/
theorem noflush_x : ∀ t : Fin cfg1.N, (cfg1.win 0).flush t = false :=
  (by decide +kernel : ∀ t : Fin grid1.N, win1_0.flush t = false)

/-- So it ends as the call found it. -/
theorem kept_x (c : Dev nD) : (dat1 V c).arrAt 0 cfg1.N = V c main_v1 :=
  funext fun i => ((dat1 V c).arrAt_apply_of_forall_not_mem 0 cfg1.N i
    (fun t _ hf => absurd hf (by rw [noflush_x t]; decide))).trans (congrFun (A_eq1 V c 0) i)

end Cert.KernelIdeal.HeadK

end
-- ==== Proof.HeadV.lean ====
/-
  The value projection's array after its tiled call, as ONE function of the arrays the call finds.

  The call walks a grid of 1 column block (outer) by 32 row blocks (inner).  At a point with row block `i` and
  column block `n` it reads rows 256·i … 256·i+255 of the flattened input, columns 1024·n … 1024·n+1023 of the
  transposed weight, of the second thin factor and of the bias row, and the whole first thin factor, and it
  writes the tile (rows 256·i …, columns 1024·n …) of the result.  Entry (p, q) of that tile is the entry
  (256·i + p, 1024·n + q) of `lora` over the whole arrays (Payload.lean's entry of a tile, then congruence:
  each block's entry is the whole array's entry at the shifted position).  The tiles cover the result, so
  the result array ends holding `lora` of the whole arrays at every entry.  The flattened input is only read,
  never written back, so it ends as the call found it.
-/
import proofs.«166460_j61770219651785_2_alg».proof.Proof.Gen.KernelIdeal.Frame
import proofs.«166460_j61770219651785_2_alg».proof.Proof.Payload
import Idealize.ShloMosaic.Lib.Pipeline.Value

set_option maxRecDepth 16384

noncomputable section

namespace Cert.KernelIdeal.HeadV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LoraProj Cert.KernelIdeal.Tile

variable (V : (c : Dev nD) → (b : Ref sig .tc) → Buf (Elt Ideal) ((c : Thread nD τ).loc b))

theorem hz : (![0, 0] : Fin 2 → Nat) = fun _ => 0 := funext fun a => by fin_cases a <;> rfl

/-- The result array as one function of the five arrays the call reads. -/
abbrev whole (X : S8192x4096.Idx → EReal) (Wt : S4096x1024.Idx → EReal) (A : S4096x16.Idx → EReal)
    (B : S16x1024.Idx → EReal) (β : S1x1024.Idx → EReal) : S8192x1024.Idx → EReal :=
  fun i => lora X Wt A B β (i 0) (i 1)

/-- The index maps, decided once over the grid: the input's row block is the result's; the weight's, the second
    factor's and the bias row's column block is the result's; every other block index is zero. -/
theorem idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = win2_5.index t (1 : Fin 2)
    ∧ win2_2.index t (0 : Fin 2) = 0 ∧ win2_2.index t (1 : Fin 2) = 0
    ∧ win2_3.index t (0 : Fin 2) = 0 ∧ win2_3.index t (1 : Fin 2) = win2_5.index t (1 : Fin 2)
    ∧ win2_4.index t (0 : Fin 2) = 0 ∧ win2_4.index t (1 : Fin 2) = win2_5.index t (1 : Fin 2)
    ∧ win2_5.index t (0 : Fin 2) < 32 ∧ win2_5.index t (1 : Fin 2) < 1 :=
  (by decide +kernel : ∀ t : Fin grid2.N, _)

/-- Every tile of the result is some point's. -/
theorem idx_onto : ∀ (q0 : Fin 32) (q1 : Fin 1), ∃ t : Fin cfg2.N, win2_5.index t = ![q0.val, q1.val] :=
  (by decide +kernel : ∀ (q0 : Fin 32) (q1 : Fin 1), ∃ t : Fin grid2.N, win2_5.index t = ![q0.val, q1.val])

/-- What a point writes back is its tile of `whole` of the arrays as the call finds them. -/
theorem flushed_eq (c : Dev nD) (t : Fin cfg2.N) :
    (dat2 V c).flushed 5 t = ((cfg2.win 5).blk t).view.read (Elt Ideal)
      (whole (V c main_v1) (V c main_v7) (V c main_v10) (V c main_v13) (V c main_v16)) := by
  show (cfg2.win 5).cut (grid2.coords t) ((dat2 V c).after 5 t) = _
  rw [after2_5]
  unfold out2_5
  rw [View.canon_unit_zero hz]
  simp only [View.ld_unit_zero (S := S256x4096) hz, View.ld_unit_zero (S := S4096x1024) hz,
    View.ld_unit_zero (S := S4096x16) hz, View.ld_unit_zero (S := S16x1024) hz, View.ld_unit_zero (S := S1x1024) hz]
  obtain ⟨e00, e01, e10, e11, e20, e21, e30, e31, e40, e41, b0, b1⟩ := idx_facts t
  funext j
  obtain ⟨p, q, rfl⟩ : ∃ (p : Fin 256) (q : Fin 1024), j = ix2 p q := ⟨j 0, j 1, eq_ix2 j⟩
  -- the entry's position in the whole result
  have hr : win2_5.index t (0 : Fin 2) * 256 + p.val < 8192 := by omega
  have ho : win2_5.index t (1 : Fin 2) * 1024 + q.val < 1024 := by omega
  have hemb : ((cfg2.win 5).blk t).view.emb (ix2 p q) = ix2 (⟨_, hr⟩ : Fin 8192) (⟨_, ho⟩ : Fin 1024) := by
    funext a; apply Fin.ext
    match a with
    | ⟨0, _⟩ => show win2_5.index t (0 : Fin 2) * 256 + 1 * p.val = win2_5.index t (0 : Fin 2) * 256 + p.val; omega
    | ⟨1, _⟩ => show win2_5.index t (1 : Fin 2) * 1024 + 1 * q.val = win2_5.index t (1 : Fin 2) * 1024 + q.val; omega
  show k2_pay1 (iblk2 V c 0 t) (iblk2 V c 1 t) (iblk2 V c 2 t) (iblk2 V c 3 t) (iblk2 V c 4 t) (ix2 p q)
      = whole (V c main_v1) (V c main_v7) (V c main_v10) (V c main_v13) (V c main_v16) (((cfg2.win 5).blk t).view.emb (ix2 p q))
  rw [hemb, pay2_eq]
  refine (pay_at (iblk2 V c 0 t) (iblk2 V c 1 t) (iblk2 V c 2 t) (iblk2 V c 3 t) (iblk2 V c 4 t) p q).trans ?_
  refine lora_congr _ _ _ _ _ _ _ _ _ _ p q _ _ ?_ ?_ ?_ ?_ ?_
  · -- the input block's row p is the input's row 256·i + p
    intro h
    have e : ((cfg2.win 0).blk t).view.emb (ix2 p h) = ix2 (⟨_, hr⟩ : Fin 8192) h := by
      funext a; apply Fin.ext
      match a with
      | ⟨0, _⟩ => show win2_0.index t (0 : Fin 2) * 256 + 1 * p.val = win2_5.index t (0 : Fin 2) * 256 + p.val; omega
      | ⟨1, _⟩ => show win2_0.index t (1 : Fin 2) * 4096 + 1 * h.val = h.val; omega
    show V c main_v1 (((cfg2.win 0).blk t).view.emb (ix2 p h)) = _
    exact congrArg (V c main_v1) e
  · -- the weight block's column q is the weight's column 1024·n + q
    intro h
    have e : ((cfg2.win 1).blk t).view.emb (ix2 h q) = ix2 h (⟨_, ho⟩ : Fin 1024) := by
      funext a; apply Fin.ext
      match a with
      | ⟨0, _⟩ => show win2_1.index t (0 : Fin 2) * 4096 + 1 * h.val = h.val; omega
      | ⟨1, _⟩ => show win2_1.index t (1 : Fin 2) * 1024 + 1 * q.val = win2_5.index t (1 : Fin 2) * 1024 + q.val; omega
    show V c main_v7 (((cfg2.win 1).blk t).view.emb (ix2 h q)) = _
    exact congrArg (V c main_v7) e
  · -- the first thin factor is read whole
    intro h k
    have e : ((cfg2.win 2).blk t).view.emb (ix2 h k) = ix2 h k := by
      funext a; apply Fin.ext
      match a with
      | ⟨0, _⟩ => show win2_2.index t (0 : Fin 2) * 4096 + 1 * h.val = h.val; omega
      | ⟨1, _⟩ => show win2_2.index t (1 : Fin 2) * 16 + 1 * k.val = k.val; omega
    show V c main_v10 (((cfg2.win 2).blk t).view.emb (ix2 h k)) = _
    exact congrArg (V c main_v10) e
  · -- the second thin factor's column q is its column 1024·n + q
    intro k
    have e : ((cfg2.win 3).blk t).view.emb (ix2 k q) = ix2 k (⟨_, ho⟩ : Fin 1024) := by
      funext a; apply Fin.ext
      match a with
      | ⟨0, _⟩ => show win2_3.index t (0 : Fin 2) * 16 + 1 * k.val = k.val; omega
      | ⟨1, _⟩ => show win2_3.index t (1 : Fin 2) * 1024 + 1 * q.val = win2_5.index t (1 : Fin 2) * 1024 + q.val; omega
    show V c main_v13 (((cfg2.win 3).blk t).view.emb (ix2 k q)) = _
    exact congrArg (V c main_v13) e
  · -- the bias row's column q is its column 1024·n + q
    have e : ((cfg2.win 4).blk t).view.emb (ix2 (0 : Fin 1) q) = ix2 (0 : Fin 1) (⟨_, ho⟩ : Fin 1024) := by
      funext a; apply Fin.ext
      match a with
      | ⟨0, _⟩ => show win2_4.index t (0 : Fin 2) * 1 + 1 * 0 = 0; omega
      | ⟨1, _⟩ => show win2_4.index t (1 : Fin 2) * 1024 + 1 * q.val = win2_5.index t (1 : Fin 2) * 1024 + q.val; omega
    show V c main_v16 (((cfg2.win 4).blk t).view.emb (ix2 (0 : Fin 1) q)) = _
    exact congrArg (V c main_v16) e

/-- An entry of the result is in a point's tile iff each coordinate is in the tile's range. -/
theorem mem_blk (t : Fin cfg2.N) (i : S8192x1024.Idx) :
    i ∈ ((cfg2.win 5).blk t).view.set ↔ ∀ a : Fin 2, win2_5.index t a * S256x1024.size a ≤ (i a).val
      ∧ (i a).val < win2_5.index t a * S256x1024.size a + S256x1024.size a := by
  show i ∈ ((View.whole main_v19).slice (win2_5.rect t)).set ↔ _
  rw [View.set_slice_whole, Rect.mem_set_unit]
  exact Iff.rfl

/-- Every entry of the result is in some point's tile: the point whose row block is row / 256 and whose column
    block is column / 1024. -/
theorem cover (i : S8192x1024.Idx) :
    ∃ t : Fin cfg2.N, (cfg2.win 5).flush t = true ∧ i ∈ ((cfg2.win 5).blk t).view.set := by
  have hi0 : (i 0).val < 8192 := (i 0).isLt
  have hi1 : (i 1).val < 1024 := (i 1).isLt
  obtain ⟨t, ht⟩ := idx_onto ⟨(i 0).val / 256, by omega⟩ ⟨(i 1).val / 1024, by omega⟩
  have q0 : win2_5.index t (0 : Fin 2) = (i 0).val / 256 := congrFun ht 0
  have q1 : win2_5.index t (1 : Fin 2) = (i 1).val / 1024 := congrFun ht 1
  refine ⟨t, flush2_5 t, ?_⟩
  rw [mem_blk]
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 1024 ≤ (i 1).val ∧ (i 1).val < win2_5.index t (1 : Fin 2) * 1024 + 1024; omega

/-- The result array after the call. -/
theorem final (c : Dev nD) : (dat2 V c).arrAt 5 cfg2.N
    = whole (V c main_v1) (V c main_v7) (V c main_v10) (V c main_v13) (V c main_v16) :=
  (dat2 V c).arrAt_eq_of_cover 5 _ (fun t _ => flushed_eq V c t) (fun i => cover i)

/-- The flattened input is never written back. -/
theorem noflush_x : ∀ t : Fin cfg2.N, (cfg2.win 0).flush t = false :=
  (by decide +kernel : ∀ t : Fin grid2.N, win2_0.flush t = false)

/-- So it ends as the call found it. -/
theorem kept_x (c : Dev nD) : (dat2 V c).arrAt 0 cfg2.N = V c main_v1 :=
  funext fun i => ((dat2 V c).arrAt_apply_of_forall_not_mem 0 cfg2.N i
    (fun t _ hf => absurd hf (by rw [noflush_x t]; decide))).trans (congrFun (A_eq2 V c 0) i)

end Cert.KernelIdeal.HeadV

end
-- ==== Proof.KernelValue.lean ====
/-
  The three results of the idealized kernel program as functions of its arguments, and its run re-posted with them.

  Each result is its projection's flat array given its batch × sequence shape back: entry (b, s, o) of the
  result is entry (2048·b + s, o) of the flat array.  The flat array is `lora` of the arrays its tiled call found
  (the head modules).  The second and third calls find the flattened input as the first one did — a call never
  writes an array it only reads — and their other arrays are not touched by an earlier call at all; so all
  three calls read what the host operations before the first call left (Entry.lean), which are entries of the
  arguments.  Hence entry (b, s, o) of each result is `proj3` of the arguments (Spec.lean).
-/
import proofs.«166460_j61770219651785_2_alg».proof.Proof.KernelRun
import proofs.«166460_j61770219651785_2_alg».proof.Proof.Entry
import proofs.«166460_j61770219651785_2_alg».proof.Proof.HeadQ
import proofs.«166460_j61770219651785_2_alg».proof.Proof.HeadK
import proofs.«166460_j61770219651785_2_alg».proof.Proof.HeadV

noncomputable section

namespace Cert.KernelIdeal.Result

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Entry Cert.LoraProj

variable (m : (ℓ : Loc nD τ sig) → Buf (Elt Ideal) ℓ) (ρ : Dev nD → PrngReg)

/-! ## What the later calls find -/

/-- The second call finds the flattened input as the first call found it. -/
theorem x_second (c : Dev nD) : V2 m ρ c main_v1 = V1 m ρ c main_v1 :=
  (W2_arr m ρ c 0).trans (HeadQ.kept_x (V1 m ρ) c)

/-- And so does the third. -/
theorem x_third (c : Dev nD) : V3 m ρ c main_v1 = V1 m ρ c main_v1 :=
  ((W3_arr m ρ c 0).trans (HeadK.kept_x (V2 m ρ) c)).trans (x_second m ρ c)

/-- An array the first call does not name is, at the second call's entry, as the host operations left it. -/
theorem second_of_ne (c : Dev nD) (b : Ref sig .tc) (hb : ∀ w, Pipeline.arrRef spec0 w ≠ b) : V2 m ρ c b = V1 m ρ c b :=
  W2_of_ne m ρ c b hb

/-- An array neither earlier call names is, at the third call's entry, as the host operations left it. -/
theorem third_of_ne (c : Dev nD) (b : Ref sig .tc) (hb0 : ∀ w, Pipeline.arrRef spec0 w ≠ b) (hb1 : ∀ w, Pipeline.arrRef spec1 w ≠ b) :
    V3 m ρ c b = V1 m ρ c b :=
  (W3_of_ne m ρ c b hb1).trans (W2_of_ne m ρ c b hb0)

/-! ## The three flat arrays after the calls -/

theorem q_arr (c : Dev nD) : W4 m ρ c (Proc.devRef .tc main_v17)
    = HeadQ.whole (V1 m ρ c main_v1) (V1 m ρ c main_v3) (V1 m ρ c main_v8) (V1 m ρ c main_v11) (V1 m ρ c main_v14) :=
  (W4_of_ne m ρ c main_v17 (by decide)).trans ((W3_of_ne m ρ c main_v17 (by decide)).trans
    ((W2_arr m ρ c 5).trans (HeadQ.final (V1 m ρ) c)))

theorem k_arr (c : Dev nD) : W4 m ρ c (Proc.devRef .tc main_v18)
    = HeadK.whole (V1 m ρ c main_v1) (V1 m ρ c main_v5) (V1 m ρ c main_v9) (V1 m ρ c main_v12) (V1 m ρ c main_v15) := by
  refine (W4_of_ne m ρ c main_v18 (by decide)).trans ((W3_arr m ρ c 5).trans ((HeadK.final (V2 m ρ) c).trans ?_))
  rw [x_second m ρ c, second_of_ne m ρ c main_v5 (by decide), second_of_ne m ρ c main_v9 (by decide),
    second_of_ne m ρ c main_v12 (by decide), second_of_ne m ρ c main_v15 (by decide)]

theorem v_arr (c : Dev nD) : W4 m ρ c (Proc.devRef .tc main_v19)
    = HeadV.whole (V1 m ρ c main_v1) (V1 m ρ c main_v7) (V1 m ρ c main_v10) (V1 m ρ c main_v13) (V1 m ρ c main_v16) := by
  refine (W4_arr m ρ c 5).trans ((HeadV.final (V3 m ρ) c).trans ?_)
  rw [x_third m ρ c, third_of_ne m ρ c main_v7 (by decide) (by decide), third_of_ne m ρ c main_v10 (by decide) (by decide),
    third_of_ne m ρ c main_v13 (by decide) (by decide), third_of_ne m ρ c main_v16 (by decide) (by decide)]

/-! ## The query result -/

/-- The result is its flat array given its batch × sequence shape back. -/
theorem q_tail (c : Dev nD) : (W5 m ρ c (Proc.devRef .tc main_v20) : S4x2048x4096.Idx → EReal)
    = (shapeCast S4x2048x4096 (W4 m ρ c (Proc.devRef .tc main_v17) : S8192x4096.Idx → EReal) shapeCasts_S8192x4096_S4x2048x4096 : S4x2048x4096.Idx → EReal) := by
  show StableHlo.after hostOps3 (W4 m ρ c) (Proc.devRef .tc main_v20) = _
  after_results <;> rfl

/-- The query result as a function of the arguments. -/
def outQ (c : Dev nD) : Buf (Elt Ideal) ((c : Thread nD τ).loc main_v20) :=
  fun i : S4x2048x4096.Idx => proj3 (m ((c : Thread nD τ).loc main_arg0)) (m ((c : Thread nD τ).loc main_arg1)) (m ((c : Thread nD τ).loc main_arg4)) (m ((c : Thread nD τ).loc main_arg7)) (m ((c : Thread nD τ).loc main_arg8)) (i 0) (i 1) (i 2)

theorem q_value (c : Dev nD) (b : Fin 4) (s : Fin 2048) (o : Fin 4096) :
    W5 m ρ c (Proc.devRef .tc main_v20) (ix3 b s o)
      = proj3 (m ((c : Thread nD τ).loc main_arg0)) (m ((c : Thread nD τ).loc main_arg1)) (m ((c : Thread nD τ).loc main_arg4)) (m ((c : Thread nD τ).loc main_arg7)) (m ((c : Thread nD τ).loc main_arg8)) b s o := by
  have hr : b.val * 2048 + s.val < 8192 := by omega
  refine (congrFun (q_tail m ρ c) (ix3 b s o)).trans ?_
  refine (shapeCast_apply _ _ (ix3 b s o) (ix2 (⟨_, hr⟩ : Fin 8192) o) (by
    rw [Shape.rowMajor_val_two, Shape.rowMajor_val_three]; rfl)).trans ?_
  rw [q_arr]
  exact lora_eq_proj3 _ _ _ _ _ _ _ _ _ _ (⟨_, hr⟩ : Fin 8192) b s o (fun h => x_at m ρ c b s h _ rfl)
    (fun h => wq_at m ρ c h o) (fun h k => aq_at m ρ c h k) (fun k => bq_at m ρ c k o) (βq_at m ρ c o)

theorem q_final (c : Dev nD) : W5 m ρ c (Proc.devRef .tc main_v20) = outQ m c := by
  funext i
  obtain ⟨b, s, o, rfl⟩ : ∃ (b : Fin 4) (s : Fin 2048) (o : Fin 4096), i = ix3 b s o := ⟨i 0, i 1, i 2, eq_ix3 i⟩
  exact q_value m ρ c b s o

/-! ## The key result -/

/-- The result is its flat array given its batch × sequence shape back. -/
theorem k_tail (c : Dev nD) : (W5 m ρ c (Proc.devRef .tc main_v21) : S4x2048x1024.Idx → EReal)
    = (shapeCast S4x2048x1024 (W4 m ρ c (Proc.devRef .tc main_v18) : S8192x1024.Idx → EReal) shapeCasts_S8192x1024_S4x2048x1024 : S4x2048x1024.Idx → EReal) := by
  show StableHlo.after hostOps3 (W4 m ρ c) (Proc.devRef .tc main_v21) = _
  after_results <;> rfl

/-- The key result as a function of the arguments. -/
def outK (c : Dev nD) : Buf (Elt Ideal) ((c : Thread nD τ).loc main_v21) :=
  fun i : S4x2048x1024.Idx => proj3 (m ((c : Thread nD τ).loc main_arg0)) (m ((c : Thread nD τ).loc main_arg2)) (m ((c : Thread nD τ).loc main_arg5)) (m ((c : Thread nD τ).loc main_arg9)) (m ((c : Thread nD τ).loc main_arg10)) (i 0) (i 1) (i 2)

theorem k_value (c : Dev nD) (b : Fin 4) (s : Fin 2048) (o : Fin 1024) :
    W5 m ρ c (Proc.devRef .tc main_v21) (ix3 b s o)
      = proj3 (m ((c : Thread nD τ).loc main_arg0)) (m ((c : Thread nD τ).loc main_arg2)) (m ((c : Thread nD τ).loc main_arg5)) (m ((c : Thread nD τ).loc main_arg9)) (m ((c : Thread nD τ).loc main_arg10)) b s o := by
  have hr : b.val * 2048 + s.val < 8192 := by omega
  refine (congrFun (k_tail m ρ c) (ix3 b s o)).trans ?_
  refine (shapeCast_apply _ _ (ix3 b s o) (ix2 (⟨_, hr⟩ : Fin 8192) o) (by
    rw [Shape.rowMajor_val_two, Shape.rowMajor_val_three]; rfl)).trans ?_
  rw [k_arr]
  exact lora_eq_proj3 _ _ _ _ _ _ _ _ _ _ (⟨_, hr⟩ : Fin 8192) b s o (fun h => x_at m ρ c b s h _ rfl)
    (fun h => wk_at m ρ c h o) (fun h k => ak_at m ρ c h k) (fun k => bk_at m ρ c k o) (βk_at m ρ c o)

theorem k_final (c : Dev nD) : W5 m ρ c (Proc.devRef .tc main_v21) = outK m c := by
  funext i
  obtain ⟨b, s, o, rfl⟩ : ∃ (b : Fin 4) (s : Fin 2048) (o : Fin 1024), i = ix3 b s o := ⟨i 0, i 1, i 2, eq_ix3 i⟩
  exact k_value m ρ c b s o

/-! ## The value result -/

/-- The result is its flat array given its batch × sequence shape back. -/
theorem v_tail (c : Dev nD) : (W5 m ρ c (Proc.devRef .tc main_v22) : S4x2048x1024.Idx → EReal)
    = (shapeCast S4x2048x1024 (W4 m ρ c (Proc.devRef .tc main_v19) : S8192x1024.Idx → EReal) shapeCasts_S8192x1024_S4x2048x1024 : S4x2048x1024.Idx → EReal) := by
  show StableHlo.after hostOps3 (W4 m ρ c) (Proc.devRef .tc main_v22) = _
  after_results <;> rfl

/-- The value result as a function of the arguments. -/
def outV (c : Dev nD) : Buf (Elt Ideal) ((c : Thread nD τ).loc main_v22) :=
  fun i : S4x2048x1024.Idx => proj3 (m ((c : Thread nD τ).loc main_arg0)) (m ((c : Thread nD τ).loc main_arg3)) (m ((c : Thread nD τ).loc main_arg6)) (m ((c : Thread nD τ).loc main_arg11)) (m ((c : Thread nD τ).loc main_arg12)) (i 0) (i 1) (i 2)

theorem v_value (c : Dev nD) (b : Fin 4) (s : Fin 2048) (o : Fin 1024) :
    W5 m ρ c (Proc.devRef .tc main_v22) (ix3 b s o)
      = proj3 (m ((c : Thread nD τ).loc main_arg0)) (m ((c : Thread nD τ).loc main_arg3)) (m ((c : Thread nD τ).loc main_arg6)) (m ((c : Thread nD τ).loc main_arg11)) (m ((c : Thread nD τ).loc main_arg12)) b s o := by
  have hr : b.val * 2048 + s.val < 8192 := by omega
  refine (congrFun (v_tail m ρ c) (ix3 b s o)).trans ?_
  refine (shapeCast_apply _ _ (ix3 b s o) (ix2 (⟨_, hr⟩ : Fin 8192) o) (by
    rw [Shape.rowMajor_val_two, Shape.rowMajor_val_three]; rfl)).trans ?_
  rw [v_arr]
  exact lora_eq_proj3 _ _ _ _ _ _ _ _ _ _ (⟨_, hr⟩ : Fin 8192) b s o (fun h => x_at m ρ c b s h _ rfl)
    (fun h => wv_at m ρ c h o) (fun h k => av_at m ρ c h k) (fun k => bv_at m ρ c k o) (βv_at m ρ c o)

theorem v_final (c : Dev nD) : W5 m ρ c (Proc.devRef .tc main_v22) = outV m c := by
  funext i
  obtain ⟨b, s, o, rfl⟩ : ∃ (b : Fin 4) (s : Fin 2048) (o : Fin 1024), i = ix3 b s o := ⟨i 0, i 1, i 2, eq_ix3 i⟩
  exact v_value m ρ c b s o

/-! ## The run, re-posted -/

/-- Every weakly fair execution of the idealized kernel program terminates without a fault, with the three results
    at `outQ`, `outK`, `outV` of the arguments and the arguments unchanged. -/
theorem run : θ_run defs (onTc (τ := τ) (main (F := Ideal))) ⟨m, fun _ => 0, ρ⟩ (fun r => ∀ c : Dev nD,
      r.2.mem ((c.tc : Thread nD τ).loc main_v20) = outQ m c
      ∧ r.2.mem ((c.tc : Thread nD τ).loc main_v21) = outK m c
      ∧ r.2.mem ((c.tc : Thread nD τ).loc main_v22) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v20 (by decide))).trans (q_final m ρ c),
      (h c _ (mem_uc main_v21 (by decide))).trans (k_final m ρ c),
      (h c _ (mem_uc main_v22 (by decide))).trans (v_final m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩)
    (Cert.KernelIdeal.Named.run_all m ρ)

end Cert.KernelIdeal.Result

end
-- ==== Proof.Reference.lean ====
/-
  The reference at an entry.

  For each of the three projections the reference computes, over the arguments as given,
  `(x·Wᵀ + 2·((x·A)·B)) + β` with the bias repeated over batch and sequence; each product is a host contraction
  over one axis, which at the ideal instance is the plain sum over that axis.  Reading the generated stage
  lemmas outermost first, and naming each operand's index coordinate by coordinate, the entry (b, s, o) is
  `proj3` (Spec.lean) of the arguments.
-/
import proofs.«166460_j61770219651785_2_alg».proof.Proof.Gen.ReferenceIdeal.Read
import proofs.«166460_j61770219651785_2_alg».proof.Proof.Spec

noncomputable section

namespace Cert.ReferenceIdeal.Entrywise

open Idealize.ShloMosaic Idealize.ShloMosaic.ValueIdx
open Cert.ReferenceIdeal Cert.ReferenceIdeal.Read Cert.LoraProj

/-! ## The query projection -/

theorem q_l0 (b : Fin 4) (s : Fin 2048) (o : Fin 4096) (h : Fin 4096) : lidx_main_v0 (ix3 b s o) h = ix3 b s h :=
  funext fun a => Fin.ext (by match a with | ⟨0, _⟩ => rfl | ⟨1, _⟩ => rfl | ⟨2, _⟩ => rfl)
theorem q_r0 (b : Fin 4) (s : Fin 2048) (o : Fin 4096) (h : Fin 4096) : ridx_main_v0 (ix3 b s o) h = ix2 o h :=
  funext fun a => Fin.ext (by match a with | ⟨0, _⟩ => rfl | ⟨1, _⟩ => rfl)
theorem q_l1 (b : Fin 4) (s : Fin 2048) (k : Fin 16) (h : Fin 4096) : lidx_main_v1 (ix3 b s k) h = ix3 b s h :=
  funext fun a => Fin.ext (by match a with | ⟨0, _⟩ => rfl | ⟨1, _⟩ => rfl | ⟨2, _⟩ => rfl)
theorem q_r1 (b : Fin 4) (s : Fin 2048) (k : Fin 16) (h : Fin 4096) : ridx_main_v1 (ix3 b s k) h = ix2 h k :=
  funext fun a => Fin.ext (by match a with | ⟨0, _⟩ => rfl | ⟨1, _⟩ => rfl)
theorem q_l2 (b : Fin 4) (s : Fin 2048) (o : Fin 4096) (k : Fin 16) : lidx_main_v2 (ix3 b s o) k = ix3 b s k :=
  funext fun a => Fin.ext (by match a with | ⟨0, _⟩ => rfl | ⟨1, _⟩ => rfl | ⟨2, _⟩ => rfl)
theorem q_r2 (b : Fin 4) (s : Fin 2048) (o : Fin 4096) (k : Fin 16) : ridx_main_v2 (ix3 b s o) k = ix2 k o :=
  funext fun a => Fin.ext (by match a with | ⟨0, _⟩ => rfl | ⟨1, _⟩ => rfl)
theorem q_ib (b : Fin 4) (s : Fin 2048) (o : Fin 4096) : idx_main_v6 (idx_main_v7 (ix3 b s o)) = ix1 o :=
  funext fun a => Fin.ext (by match a with | ⟨0, _⟩ => rfl)

/-- The reference's query result at (b, s, o) is `proj3` of its arguments there. -/
theorem q_at (x : (⟨S4x2048x4096, .f32⟩ : BufTy).Contents (Elt Ideal)) (W : (⟨S4096x4096, .f32⟩ : BufTy).Contents (Elt Ideal))
    (β : (⟨S4096, .f32⟩ : BufTy).Contents (Elt Ideal)) (A : (⟨S4096x16, .f32⟩ : BufTy).Contents (Elt Ideal))
    (B : (⟨S16x4096, .f32⟩ : BufTy).Contents (Elt Ideal)) (b : Fin 4) (s : Fin 2048) (o : Fin 4096) :
    val_main_v8 (F := Ideal) x W β A B (ix3 b s o) = proj3 x W β A B b s o := by
  rw [val_main_v8_apply, val_main_v5_apply, val_main_v4_apply, val_main_v3_apply, val_main_cst_apply,
    val_main_v0_apply, val_main_v2_apply, val_main_v7_apply, val_main_v6_apply]
  simp only [val_main_v1_apply, q_l0, q_r0, q_l1, q_r1, q_l2, q_r2, q_ib]
  rfl

/-! ## The key projection -/

theorem k_l0 (b : Fin 4) (s : Fin 2048) (o : Fin 1024) (h : Fin 4096) : lidx_main_v9 (ix3 b s o) h = ix3 b s h :=
  funext fun a => Fin.ext (by match a with | ⟨0, _⟩ => rfl | ⟨1, _⟩ => rfl | ⟨2, _⟩ => rfl)
theorem k_r0 (b : Fin 4) (s : Fin 2048) (o : Fin 1024) (h : Fin 4096) : ridx_main_v9 (ix3 b s o) h = ix2 o h :=
  funext fun a => Fin.ext (by match a with | ⟨0, _⟩ => rfl | ⟨1, _⟩ => rfl)
theorem k_l1 (b : Fin 4) (s : Fin 2048) (k : Fin 16) (h : Fin 4096) : lidx_main_v10 (ix3 b s k) h = ix3 b s h :=
  funext fun a => Fin.ext (by match a with | ⟨0, _⟩ => rfl | ⟨1, _⟩ => rfl | ⟨2, _⟩ => rfl)
theorem k_r1 (b : Fin 4) (s : Fin 2048) (k : Fin 16) (h : Fin 4096) : ridx_main_v10 (ix3 b s k) h = ix2 h k :=
  funext fun a => Fin.ext (by match a with | ⟨0, _⟩ => rfl | ⟨1, _⟩ => rfl)
theorem k_l2 (b : Fin 4) (s : Fin 2048) (o : Fin 1024) (k : Fin 16) : lidx_main_v11 (ix3 b s o) k = ix3 b s k :=
  funext fun a => Fin.ext (by match a with | ⟨0, _⟩ => rfl | ⟨1, _⟩ => rfl | ⟨2, _⟩ => rfl)
theorem k_r2 (b : Fin 4) (s : Fin 2048) (o : Fin 1024) (k : Fin 16) : ridx_main_v11 (ix3 b s o) k = ix2 k o :=
  funext fun a => Fin.ext (by match a with | ⟨0, _⟩ => rfl | ⟨1, _⟩ => rfl)
theorem k_ib (b : Fin 4) (s : Fin 2048) (o : Fin 1024) : idx_main_v15 (idx_main_v16 (ix3 b s o)) = ix1 o :=
  funext fun a => Fin.ext (by match a with | ⟨0, _⟩ => rfl)

/-- The reference's key result at (b, s, o) is `proj3` of its arguments there. -/
theorem k_at (x : (⟨S4x2048x4096, .f32⟩ : BufTy).Contents (Elt Ideal)) (W : (⟨S1024x4096, .f32⟩ : BufTy).Contents (Elt Ideal))
    (β : (⟨S1024, .f32⟩ : BufTy).Contents (Elt Ideal)) (A : (⟨S4096x16, .f32⟩ : BufTy).Contents (Elt Ideal))
    (B : (⟨S16x1024, .f32⟩ : BufTy).Contents (Elt Ideal)) (b : Fin 4) (s : Fin 2048) (o : Fin 1024) :
    val_main_v17 (F := Ideal) x W β A B (ix3 b s o) = proj3 x W β A B b s o := by
  rw [val_main_v17_apply, val_main_v14_apply, val_main_v13_apply, val_main_v12_apply, val_main_cst_0_apply,
    val_main_v9_apply, val_main_v11_apply, val_main_v16_apply, val_main_v15_apply]
  simp only [val_main_v10_apply, k_l0, k_r0, k_l1, k_r1, k_l2, k_r2, k_ib]
  rfl

/-! ## The value projection -/

theorem v_l0 (b : Fin 4) (s : Fin 2048) (o : Fin 1024) (h : Fin 4096) : lidx_main_v18 (ix3 b s o) h = ix3 b s h :=
  funext fun a => Fin.ext (by match a with | ⟨0, _⟩ => rfl | ⟨1, _⟩ => rfl | ⟨2, _⟩ => rfl)
theorem v_r0 (b : Fin 4) (s : Fin 2048) (o : Fin 1024) (h : Fin 4096) : ridx_main_v18 (ix3 b s o) h = ix2 o h :=
  funext fun a => Fin.ext (by match a with | ⟨0, _⟩ => rfl | ⟨1, _⟩ => rfl)
theorem v_l1 (b : Fin 4) (s : Fin 2048) (k : Fin 16) (h : Fin 4096) : lidx_main_v19 (ix3 b s k) h = ix3 b s h :=
  funext fun a => Fin.ext (by match a with | ⟨0, _⟩ => rfl | ⟨1, _⟩ => rfl | ⟨2, _⟩ => rfl)
theorem v_r1 (b : Fin 4) (s : Fin 2048) (k : Fin 16) (h : Fin 4096) : ridx_main_v19 (ix3 b s k) h = ix2 h k :=
  funext fun a => Fin.ext (by match a with | ⟨0, _⟩ => rfl | ⟨1, _⟩ => rfl)
theorem v_l2 (b : Fin 4) (s : Fin 2048) (o : Fin 1024) (k : Fin 16) : lidx_main_v20 (ix3 b s o) k = ix3 b s k :=
  funext fun a => Fin.ext (by match a with | ⟨0, _⟩ => rfl | ⟨1, _⟩ => rfl | ⟨2, _⟩ => rfl)
theorem v_r2 (b : Fin 4) (s : Fin 2048) (o : Fin 1024) (k : Fin 16) : ridx_main_v20 (ix3 b s o) k = ix2 k o :=
  funext fun a => Fin.ext (by match a with | ⟨0, _⟩ => rfl | ⟨1, _⟩ => rfl)
theorem v_ib (b : Fin 4) (s : Fin 2048) (o : Fin 1024) : idx_main_v24 (idx_main_v25 (ix3 b s o)) = ix1 o :=
  funext fun a => Fin.ext (by match a with | ⟨0, _⟩ => rfl)

/-- The reference's value result at (b, s, o) is `proj3` of its arguments there. -/
theorem v_at (x : (⟨S4x2048x4096, .f32⟩ : BufTy).Contents (Elt Ideal)) (W : (⟨S1024x4096, .f32⟩ : BufTy).Contents (Elt Ideal))
    (β : (⟨S1024, .f32⟩ : BufTy).Contents (Elt Ideal)) (A : (⟨S4096x16, .f32⟩ : BufTy).Contents (Elt Ideal))
    (B : (⟨S16x1024, .f32⟩ : BufTy).Contents (Elt Ideal)) (b : Fin 4) (s : Fin 2048) (o : Fin 1024) :
    val_main_v26 (F := Ideal) x W β A B (ix3 b s o) = proj3 x W β A B b s o := by
  rw [val_main_v26_apply, val_main_v23_apply, val_main_v22_apply, val_main_v21_apply, val_main_cst_1_apply,
    val_main_v18_apply, val_main_v20_apply, val_main_v25_apply, val_main_v24_apply]
  simp only [val_main_v19_apply, v_l0, v_r0, v_l1, v_r1, v_l2, v_r2, v_ib]
  rfl

end Cert.ReferenceIdeal.Entrywise

end
-- ==== Proof.lean ====
/-
  A fused q/k/v projection with a low-rank update, tiled, against its plain reference.

  For an input `x[b,s,·]` (4 × 2048 rows of 4096), and for each of three heads a weight `W[o,·]`, a bias `β[o]`
  and two thin factors `A[·,k]`, `B[k,o]` of rank 16, both programs compute

      out[b,s,o] = ( Σ_h x[b,s,h]·W[o,h]  +  2 · Σ_k ( Σ_h x[b,s,h]·A[h,k] ) · B[k,o] )  +  β[o]

  with the sums and the two additions grouped exactly so.  The kernel program flattens the input to 8192 rows,
  transposes the weights, recasts everything to bf16 (the identity on the extended reals), runs one tiled call per
  head (256-row by 1024-column tiles, each a whole contraction over the 4096 hidden entries) and gives the results
  their batch × sequence shape back; the reference contracts the arguments as given.  Entry by entry both are
  `proj3` of the arguments (Spec.lean): the kernel side in KernelValue.lean (over Payload, the three head modules,
  Entry and KernelRun), the reference side in Reference.lean.  No algebraic law beyond congruence is needed, so
  the finiteness of the inputs is never used.  The idealization rewrote nothing, so its soundness statement is
  trivial; the three frames are the generated frame certificates and the reference's generated run.
-/
import proofs.«166460_j61770219651785_2_alg».proof.Defs
import proofs.«166460_j61770219651785_2_alg».proof.Proof.Gen.Kernel
import proofs.«166460_j61770219651785_2_alg».proof.Proof.Gen.Kernel.Skeleton
import proofs.«166460_j61770219651785_2_alg».proof.Proof.Gen.Kernel.Launch
import proofs.«166460_j61770219651785_2_alg».proof.Proof.Gen.Kernel.Points
import proofs.«166460_j61770219651785_2_alg».proof.Proof.Gen.Kernel.Frame
import proofs.«166460_j61770219651785_2_alg».proof.Proof.Gen.KernelIdeal
import proofs.«166460_j61770219651785_2_alg».proof.Proof.Gen.KernelIdeal.Skeleton
import proofs.«166460_j61770219651785_2_alg».proof.Proof.Gen.KernelIdeal.Launch
import proofs.«166460_j61770219651785_2_alg».proof.Proof.Gen.KernelIdeal.Points
import proofs.«166460_j61770219651785_2_alg».proof.Proof.Gen.KernelIdeal.Frame
import proofs.«166460_j61770219651785_2_alg».proof.Proof.Gen.ReferenceIdeal
import proofs.«166460_j61770219651785_2_alg».proof.Proof.Gen.Pre_finite_inputs
import proofs.«166460_j61770219651785_2_alg».proof.Proof.Gen.ReferenceIdeal.Run
import proofs.«166460_j61770219651785_2_alg».proof.Proof.Gen.ReferenceIdeal.Read
import proofs.«166460_j61770219651785_2_alg».proof.Proof.KernelValue
import proofs.«166460_j61770219651785_2_alg».proof.Proof.Reference
import Idealize.ShloMosaic.Adequacy
import Idealize.ShloMosaic.Init

noncomputable section

namespace Cert.Proof

open Idealize.ShloMosaic Idealize.ShloMosaic.ValueIdx Idealize.SL.Sem Cert.LoraProj

/-! ## The reference's three results as whole arrays -/

theorem ref_q (x : Cert.ReferenceIdeal.S4x2048x4096.Idx → EReal) (W : Cert.ReferenceIdeal.S4096x4096.Idx → EReal)
    (β : Cert.ReferenceIdeal.S4096.Idx → EReal) (A : Cert.ReferenceIdeal.S4096x16.Idx → EReal)
    (B : Cert.ReferenceIdeal.S16x4096.Idx → EReal) :
    Cert.ReferenceIdeal.Read.val_main_v8 (F := Ideal) x W β A B = fun i => proj3 x W β A B (i 0) (i 1) (i 2) := by
  funext i
  obtain ⟨b, s, o, rfl⟩ : ∃ (b : Fin 4) (s : Fin 2048) (o : Fin 4096), i = ix3 b s o := ⟨i 0, i 1, i 2, eq_ix3 i⟩
  exact Cert.ReferenceIdeal.Entrywise.q_at x W β A B b s o

theorem ref_k (x : Cert.ReferenceIdeal.S4x2048x4096.Idx → EReal) (W : Cert.ReferenceIdeal.S1024x4096.Idx → EReal)
    (β : Cert.ReferenceIdeal.S1024.Idx → EReal) (A : Cert.ReferenceIdeal.S4096x16.Idx → EReal)
    (B : Cert.ReferenceIdeal.S16x1024.Idx → EReal) :
    Cert.ReferenceIdeal.Read.val_main_v17 (F := Ideal) x W β A B = fun i => proj3 x W β A B (i 0) (i 1) (i 2) := by
  funext i
  obtain ⟨b, s, o, rfl⟩ : ∃ (b : Fin 4) (s : Fin 2048) (o : Fin 1024), i = ix3 b s o := ⟨i 0, i 1, i 2, eq_ix3 i⟩
  exact Cert.ReferenceIdeal.Entrywise.k_at x W β A B b s o

theorem ref_v (x : Cert.ReferenceIdeal.S4x2048x4096.Idx → EReal) (W : Cert.ReferenceIdeal.S1024x4096.Idx → EReal)
    (β : Cert.ReferenceIdeal.S1024.Idx → EReal) (A : Cert.ReferenceIdeal.S4096x16.Idx → EReal)
    (B : Cert.ReferenceIdeal.S16x1024.Idx → EReal) :
    Cert.ReferenceIdeal.Read.val_main_v26 (F := Ideal) x W β A B = fun i => proj3 x W β A B (i 0) (i 1) (i 2) := by
  funext i
  obtain ⟨b, s, o, rfl⟩ : ∃ (b : Fin 4) (s : Fin 2048) (o : Fin 1024), i = ix3 b s o := ⟨i 0, i 1, i 2, eq_ix3 i⟩
  exact Cert.ReferenceIdeal.Entrywise.v_at x W β A B b s o

/-! ## The claims -/

theorem frame_k : Cert.frame_Kernel := fun m ρ _ => Cert.Kernel.Gen.frame m ρ
theorem frame_ki : Cert.frame_KernelIdeal := fun m ρ _ => Cert.KernelIdeal.Gen.frame m ρ
/-- The reference's frame is its generated run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories agreeing on the arguments both idealized programs end with each result at `proj3` of the
    arguments: the kernel program by its re-posted run, the reference by its generated run read entry by entry. -/
theorem algebraic : Cert.algebraic_KernelIdeal_ReferenceIdeal := by
  intro m ρ m' ρ' _ hagree
  refine ⟨fun c => Cert.KernelIdeal.Result.outQ m c, fun c => Cert.KernelIdeal.Result.outK m c,
    fun c => Cert.KernelIdeal.Result.outV m c, Cert.KernelIdeal.Result.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  obtain ⟨hq, hk, hv, hargs⟩ := h c
  refine ⟨hq.trans ?_, hk.trans ?_, hv.trans ?_, hargs⟩
  · rw [a0, a1, a4, a7, a8]
    exact (Cert.ReferenceIdeal.Read.val_main_v8_eq _ _ _ _ _).trans (ref_q _ _ _ _ _)
  · rw [a0, a2, a5, a9, a10]
    exact (Cert.ReferenceIdeal.Read.val_main_v17_eq _ _ _ _ _).trans (ref_k _ _ _ _ _)
  · rw [a0, a3, a6, a11, a12]
    exact (Cert.ReferenceIdeal.Read.val_main_v26_eq _ _ _ _ _).trans (ref_v _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
